-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part4 {F : FTy → Type} [FloatOps F] (main_arg15 : FVec F S128 .f32) (main_arg16 : FVec F S512x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S512x128 .f32 := Host.absf main_arg16
  let main_cst_28 : FVec F S_ .f32 := constant S_ .f32 0x7F800000#32
  let main_v75 : FVec F S512x128 .f32 := broadcastInDim S512x128 ![] bcast_S_S512x128 main_cst_28
  let main_v76 : IVec S512x128 1 := cmpf .olt main_v74 main_v75
  let main_c_29 : IVec S_ 1 := constantI S_ 1 1#1
  let main_v77 : IVec S_ 1 := (fun x v => Host.reduce IntOp.andi x v reducesTo_S512x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S512x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S512x128 .f32) (main_arg17 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S512x128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S512x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S1x1600000 : Shape := ⟨2, ![1, 1600000]⟩
abbrev S1600000 : Shape := ⟨1, ![1600000]⟩
abbrev S2000x128 : Shape := ⟨2, ![2000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 72
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S512x128, .f32⟩
  | .hbm, ⟨17, _⟩ => ⟨S128, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S2000x128, .bf16⟩
  | .local _ .vmem, ⟨25, _⟩ => ⟨S2000x128, .bf16⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S2000x128, .bf16⟩
  | .local _ .vmem, ⟨30, _⟩ => ⟨S2000x128, .bf16⟩
  | .local _ .vmem, ⟨31, _⟩ => ⟨S2000x128, .bf16⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_stg11_0 : Ref sig .tc := ⟨.vmem, 41, rfl⟩
abbrev cc3_stg12_0 : Ref sig .tc := ⟨.vmem, 42, rfl⟩
abbrev cc3_stg13_0 : Ref sig .tc := ⟨.vmem, 43, rfl⟩
abbrev cc3_stg13_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem11_0 : DmaSem sig := 41
abbrev cc3_sem12_0 : DmaSem sig := 42
abbrev cc3_sem13_0 : DmaSem sig := 43
abbrev cc3_sem13_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S2000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S2000x128_S2000x128 : S2000x128.ShapeCasts S2000x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S128x128_S128x128 : S128x128.ShapeCasts S128x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .bf16 = 32 ∨ (Rect.block (s := S100000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .bf16 = 32 ∨ (Rect.block (s := S100000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .bf16 = 32 ∨ (Rect.block (s := S100000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .bf16 = 32 ∨ (Rect.block (s := S100000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .bf16 = 32 ∨ (Rect.block (s := S100000x128) S2000x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x128.size a ≤ S128x128.size a
  hwx3_11 : ∀ i : grid3.Coords, EltTy.bits .f32 = 32 ∨ (Rect.block (s := S128x128) S128x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S2000x128.size a ≤ S100000x128.size a
  hwx3_13 : ∀ i : grid3.Coords, EltTy.bits .f32 = 32 ∨ (Rect.block (s := S100000x128) S2000x128.size (cc3_transform_13 i) (hinb3_13 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v4) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v40) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v41) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v42) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v43) S128x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg17) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v44) S2000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x512 : Shape := ⟨2, ![100000, 512]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S512x128, .f32⟩
  | .hbm, ⟨17, _⟩ => ⟨S128, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S100000x512, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_6 : Ref sig .tc := ⟨.hbm, 82, rfl⟩
abbrev main_v52 : Ref sig .tc := ⟨.hbm, 83, rfl⟩
abbrev main_v53 : Ref sig .tc := ⟨.hbm, 84, rfl⟩
abbrev main_c_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call2_cst : Ref sig .tc := ⟨.hbm, 103, rfl⟩
abbrev main_call2_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x128_S100000x128_1_0_0_1_n_n_wf : DotDims.WF S100000x512 S512x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.KRun.lean ====
/-
  The idealized kernel program's run with its result named.

  The program is four kernel launches among four stretches of host operations.  Its run ends with every buffer of
  the core at the last boundary's contents; the result array is read there by name, beside the argument arrays,
  which end as launched.  What those contents are, as a function of the arguments, is read off boundary by boundary
  in the modules that import this one.
-/
import proofs.«158009_j18923625906187_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.Run

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«158009_j18923625906187_2_alg».proof.Proof.LibPlainMatmul
import proofs.«158009_j18923625906187_2_alg».proof.Proof.LibHostRowOps
import proofs.«158009_j18923625906187_2_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.LibBlockSum.lean ====
/-
  Finite sums cut into consecutive blocks, and a sum over a padded range whose padding is zero.

  A sum over `Fin (nb * bs)` is the sum, over the `nb` blocks, of the sums over each block's `bs` consecutive
  indices: block `b` holds the indices `b * bs + i`, `i < bs`. This is the re-indexing of `Fin (nb * bs)` by
  quotient and remainder, so it holds in every commutative additive monoid; no finiteness of the summands is asked
  for, which is what lets it be used on the extended reals. The instance for 8192 = 4 · 2048 is written as the left
  fold from zero that an accumulator performs — start at zero, add the block sums one after another — both as one closed
  expression and as a recurrence. Last, a sum over `Fin (a + p)` whose final `p` summands vanish is the sum over
  `Fin a`.
-/
import Mathlib.Algebra.BigOperators.Fin
import Mathlib.Logic.Equiv.Fin.Basic
import Mathlib.Data.EReal.Basic

open scoped BigOperators

namespace Cert.LibBlockSum

/-- Index `i` of block `b` lies below the total length. -/
theorem blk_lt {nb bs : ℕ} (b : Fin nb) (i : Fin bs) : b.val * bs + i.val < nb * bs :=
  calc b.val * bs + i.val < b.val * bs + bs := Nat.add_lt_add_left i.isLt _
    _ = (b.val + 1) * bs := (Nat.succ_mul _ _).symm
    _ ≤ nb * bs := Nat.mul_le_mul_right _ b.isLt

/-- A sum over `nb * bs` consecutive indices is the sum over the `nb` blocks of the sums over each block. -/
theorem sum_blocks {M : Type*} [AddCommMonoid M] (nb bs : ℕ) (f : Fin (nb * bs) → M) :
    ∑ k : Fin (nb * bs), f k = ∑ b : Fin nb, ∑ i : Fin bs, f ⟨b.val * bs + i.val, blk_lt b i⟩ := by
  rw [← Equiv.sum_comp finProdFinEquiv f, Fintype.sum_prod_type]
  refine Finset.sum_congr rfl fun b _ => Finset.sum_congr rfl fun i _ => ?_
  congr 1
  apply Fin.ext
  show i.val + bs * b.val = b.val * bs + i.val
  rw [Nat.add_comm, Nat.mul_comm]

/-- 8192 summands as four blocks of 2048, added to zero one block after another, left to right. -/
theorem sum_8192_as_4x2048 (f : Fin 8192 → EReal) :
    ∑ k : Fin 8192, f k
      = ((((0 + ∑ i : Fin 2048, f ⟨0 * 2048 + i.val, by omega⟩)
            + ∑ i : Fin 2048, f ⟨1 * 2048 + i.val, by omega⟩)
            + ∑ i : Fin 2048, f ⟨2 * 2048 + i.val, by omega⟩)
            + ∑ i : Fin 2048, f ⟨3 * 2048 + i.val, by omega⟩) := by
  have h := sum_blocks 4 2048 f
  rw [Fin.sum_univ_four] at h
  rw [zero_add]
  exact h

/-- The same as a recurrence: an accumulator that starts at zero and at step `n` (of four) adds the sum over block `n`
    ends at the whole sum. -/
theorem acc_8192_as_4x2048 (f : Fin 8192 → EReal) (acc : ℕ → EReal) (h0 : acc 0 = 0)
    (hs : ∀ (n : ℕ) (hn : n < 4), acc (n + 1) = acc n + ∑ i : Fin 2048, f ⟨n * 2048 + i.val, by omega⟩) :
    acc 4 = ∑ k : Fin 8192, f k := by
  have e1 : acc 1 = acc 0 + _ := hs 0 (by omega)
  have e2 : acc 2 = acc 1 + _ := hs 1 (by omega)
  have e3 : acc 3 = acc 2 + _ := hs 2 (by omega)
  have e4 : acc 4 = acc 3 + _ := hs 3 (by omega)
  rw [e4, e3, e2, e1, h0, sum_8192_as_4x2048 f]

/-- The same with the four block sums given as a function on `Fin 4`. -/
theorem fold_8192_as_4x2048 (f : Fin 8192 → EReal) (g : Fin 4 → EReal)
    (hg : ∀ b : Fin 4, g b = ∑ i : Fin 2048, f ⟨b.val * 2048 + i.val, by omega⟩) :
    (((0 + g 0) + g 1) + g 2) + g 3 = ∑ k : Fin 8192, f k := by
  rw [hg 0, hg 1, hg 2, hg 3, sum_8192_as_4x2048 f]
  rfl

/-- A sum whose last `p` summands are zero is the sum of the first `a`. -/
theorem sum_pad_general {M : Type*} [AddCommMonoid M] (a p : ℕ) (f : Fin (a + p) → M)
    (h : ∀ j : Fin (a + p), a ≤ j.val → f j = 0) :
    ∑ j : Fin (a + p), f j = ∑ j : Fin a, f ⟨j.val, Nat.lt_add_right p j.isLt⟩ := by
  rw [Fin.sum_univ_add, Fintype.sum_eq_zero (fun j : Fin p => f (Fin.natAdd a j)) (fun j => h _ (Nat.le_add_right a j.val)),
    add_zero]
  rfl

/-- 384 summands of which those from 345 on are zero. -/
theorem sum_pad (f : Fin 384 → EReal) (h : ∀ j : Fin 384, 345 ≤ j.val → f j = 0) :
    ∑ j : Fin 384, f j = ∑ j : Fin 345, f ⟨j.val, by omega⟩ :=
  sum_pad_general 345 39 f h

end Cert.LibBlockSum
-- ==== Proof.Spec.lean ====
/-
  The layers of a graph-isomorphism encoder, on one row of 128 features, over the extended reals.

  * `denseRow x w b` (from the dense-layer library): lane `c` is the sum over `k` of `x k * w k c`, plus `b c`.
  * `mlpRow one zero h a w1 b1 w2 b2`: the update of one node.  The node's own features `h`, scaled by `one`, are
    added to the sum `a` of its in-neighbours' features; a dense layer follows, then the positive part against
    `zero`, then a second dense layer.
  * `outRow h0 h1 h2 h3 wo bo`: the read-out.  The four hidden states of a node, each against its own 128 rows of the
    512 x 128 read-out matrix, added in order, plus the bias.  `outRow_eq_cat` says this is the dense layer of the
    512 features obtained by laying the four states side by side: a sum over 512 consecutive indices is the sum of
    its four blocks of 128, and the blocks are added left to right, so no finiteness is needed.
-/
import Idealize.ShloMosaic.PureOps.Ideal
import proofs.«158009_j18923625906187_2_alg».proof.Proof.LibDenseRow
import proofs.«158009_j18923625906187_2_alg».proof.Proof.LibBlockSum

noncomputable section

open scoped BigOperators

namespace Cert.GinSpec

open Cert.DenseRow

/-- One node's update: `dense (max (dense (h * one + a)) zero)`. -/
def mlpRow (one zero : EReal) (h a : Fin 128 → EReal) (w1 : Fin 128 → Fin 128 → EReal) (b1 : Fin 128 → EReal)
    (w2 : Fin 128 → Fin 128 → EReal) (b2 : Fin 128 → EReal) : Fin 128 → EReal :=
  denseRow (fun k => max (denseRow (fun j => h j * one + a j) w1 b1 k) zero) w2 b2

/-- Row `j` of block `b` of a matrix of 512 rows. -/
def blockRow (b : Fin 4) (j : Fin 128) : Fin 512 := ⟨b.val * 128 + j.val, by have := b.isLt; have := j.isLt; omega⟩

/-- The read-out of one node from its four hidden states, block by block. -/
def outRow (h0 h1 h2 h3 : Fin 128 → EReal) (wo : Fin 512 → Fin 128 → EReal) (bo : Fin 128 → EReal) : Fin 128 → EReal :=
  fun c => ((((∑ k : Fin 128, h0 k * wo (blockRow 0 k) c) + (∑ k : Fin 128, h1 k * wo (blockRow 1 k) c))
    + (∑ k : Fin 128, h2 k * wo (blockRow 2 k) c)) + (∑ k : Fin 128, h3 k * wo (blockRow 3 k) c)) + bo c

/-- The read-out is the dense layer of the four states laid side by side. -/
theorem outRow_eq_cat (h0 h1 h2 h3 : Fin 128 → EReal) (wo : Fin 512 → Fin 128 → EReal) (bo : Fin 128 → EReal)
    (cat : Fin 512 → EReal)
    (e0 : ∀ k, cat (blockRow 0 k) = h0 k) (e1 : ∀ k, cat (blockRow 1 k) = h1 k)
    (e2 : ∀ k, cat (blockRow 2 k) = h2 k) (e3 : ∀ k, cat (blockRow 3 k) = h3 k) (c : Fin 128) :
    denseRow cat wo bo c = outRow h0 h1 h2 h3 wo bo c := by
  unfold denseRow outRow
  congr 1
  have hs := Cert.LibBlockSum.sum_blocks 4 128 (fun k : Fin 512 => cat k * wo k c)
  refine hs.trans ?_
  rw [Fin.sum_univ_four]
  simp only [← e0, ← e1, ← e2, ← e3]
  rfl

/-- Equal rows, weights, biases and lanes give equal node updates. -/
theorem mlpRow_congr {one zero : EReal} {h h' a a' : Fin 128 → EReal} {w1 w1' : Fin 128 → Fin 128 → EReal}
    {b1 b1' : Fin 128 → EReal} {w2 w2' : Fin 128 → Fin 128 → EReal} {b2 b2' : Fin 128 → EReal} {c c' : Fin 128}
    (eh : h = h') (ea : a = a') (e1 : w1 = w1') (f1 : b1 = b1') (e2 : w2 = w2') (f2 : b2 = b2') (ec : c = c') :
    mlpRow one zero h a w1 b1 w2 b2 c = mlpRow one zero h' a' w1' b1' w2' b2' c' := by
  subst eh ea e1 f1 e2 f2 ec; rfl

/-! ## The layers on whole arrays

  The node features are an array of 100000 rows of 128 lanes; weights are 128 x 128 (the read-out's 512 x 128), biases
  flat.  Each layer acts row by row: entry `(n, c)` of a result is lane `c` of the layer applied to row `n`. -/

open Idealize.ShloMosaic Idealize.ShloMosaic.ValueIdx

abbrev SN : Shape := ⟨2, ![100000, 128]⟩
abbrev SW : Shape := ⟨2, ![128, 128]⟩
abbrev SB : Shape := ⟨1, ![128]⟩
abbrev SO : Shape := ⟨2, ![512, 128]⟩

/-- Row `i 0` of a node array. -/
def rowOf (x : SN.Idx → EReal) (i : SN.Idx) : Fin 128 → EReal := fun k => x (ix2 (i 0) k)
/-- A weight array as a matrix. -/
def matOf (w : SW.Idx → EReal) : Fin 128 → Fin 128 → EReal := fun k c => w (ix2 k c)
/-- A flat bias as a vector. -/
def vecOf (b : SB.Idx → EReal) : Fin 128 → EReal := fun c => b (ix1 c)
/-- The read-out weights as a matrix of 512 rows. -/
def matOf512 (w : SO.Idx → EReal) : Fin 512 → Fin 128 → EReal := fun k c => w (ix2 k c)

/-- The input projection of every node. -/
def linArr (x : SN.Idx → EReal) (w : SW.Idx → EReal) (b : SB.Idx → EReal) : SN.Idx → EReal :=
  fun i => denseRow (rowOf x i) (matOf w) (vecOf b) (i 1)

/-- A message-passing layer's update of every node, from the hidden state `h` and the neighbour sums `a`. -/
def mlpArr (one zero : EReal) (h a : SN.Idx → EReal) (w1 : SW.Idx → EReal) (b1 : SB.Idx → EReal)
    (w2 : SW.Idx → EReal) (b2 : SB.Idx → EReal) : SN.Idx → EReal :=
  fun i => mlpRow one zero (rowOf h i) (rowOf a i) (matOf w1) (vecOf b1) (matOf w2) (vecOf b2) (i 1)

/-- Four products against four 128 x 128 weight blocks, added in order, plus the bias: one node. -/
def out4Row (h0 h1 h2 h3 : Fin 128 → EReal) (w0 w1 w2 w3 : Fin 128 → Fin 128 → EReal) (bo : Fin 128 → EReal) :
    Fin 128 → EReal :=
  fun c => ((((∑ k : Fin 128, h0 k * w0 k c) + (∑ k : Fin 128, h1 k * w1 k c))
    + (∑ k : Fin 128, h2 k * w2 k c)) + (∑ k : Fin 128, h3 k * w3 k c)) + bo c

/-- Equal rows, weight blocks, bias and lanes give equal read-outs. -/
theorem out4Row_congr {h0 h0' h1 h1' h2 h2' h3 h3' : Fin 128 → EReal} {w0 w0' w1 w1' w2 w2' w3 w3' : Fin 128 → Fin 128 → EReal}
    {bo bo' : Fin 128 → EReal} {c c' : Fin 128}
    (e0 : h0 = h0') (e1 : h1 = h1') (e2 : h2 = h2') (e3 : h3 = h3') (f0 : w0 = w0') (f1 : w1 = w1') (f2 : w2 = w2')
    (f3 : w3 = w3') (g : bo = bo') (ec : c = c') :
    out4Row h0 h1 h2 h3 w0 w1 w2 w3 bo c = out4Row h0' h1' h2' h3' w0' w1' w2' w3' bo' c' := by
  subst e0 e1 e2 e3 f0 f1 f2 f3 g ec; rfl

/-- With the four blocks cut out of one 512 x 128 matrix this is the read-out. -/
theorem out4Row_eq_outRow (h0 h1 h2 h3 : Fin 128 → EReal) (wo : Fin 512 → Fin 128 → EReal) (bo : Fin 128 → EReal) :
    out4Row h0 h1 h2 h3 (fun k c => wo (blockRow 0 k) c) (fun k c => wo (blockRow 1 k) c)
      (fun k c => wo (blockRow 2 k) c) (fun k c => wo (blockRow 3 k) c) bo = outRow h0 h1 h2 h3 wo bo := rfl

/-- The read-out kernel on whole arrays: the last message-passing layer of every node computed in place from `h2` and
    its neighbour sums `a2`, then the four hidden states against the four weight blocks. -/
def outKArr (one zero : EReal) (h0 h1 h2 a2 : SN.Idx → EReal) (w1 : SW.Idx → EReal) (b1 : SB.Idx → EReal)
    (w2 : SW.Idx → EReal) (b2 : SB.Idx → EReal) (wo0 wo1 wo2 wo3 : SW.Idx → EReal) (bo : SB.Idx → EReal) : SN.Idx → EReal :=
  fun i => out4Row (rowOf h0 i) (rowOf h1 i) (rowOf h2 i)
    (mlpRow one zero (rowOf h2 i) (rowOf a2 i) (matOf w1) (vecOf b1) (matOf w2) (vecOf b2))
    (matOf wo0) (matOf wo1) (matOf wo2) (matOf wo3) (vecOf bo) (i 1)

end Cert.GinSpec

end
-- ==== Proof.KPay.lean ====
/-
  What each kernel body stores, read at an entry of its 2000 x 128 block, on the extended reals.

  On the extended reals a change of float format is the identity, so each body is a chain of dense layers
  (`denseRow`): the input projection is one dense layer of a row of the block; a message-passing layer is
  `mlpRow` of a row of the hidden state and the same row of the neighbour sums; the read-out kernel computes the
  last message-passing layer in place and contracts the four hidden states against four 128 x 128 weight blocks.
  Row `p` of a result depends on row `p` of the row-blocked operands only, and on the whole weights and biases.
-/
import proofs.«158009_j18923625906187_2_alg».proof.Proof.Gen.KernelIdeal.Skeleton
import proofs.«158009_j18923625906187_2_alg».proof.Proof.LibDenseRow
import proofs.«158009_j18923625906187_2_alg».proof.Proof.Spec
import Idealize.ShloMosaic.Lib.ValueIdx
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.DenseRow Cert.GinSpec

/-- The printed product record is the plain `2000 x 128` by `128 x 128` product. -/
theorem dot_eq_plain : dot_S2000x128_S128x128_S2000x128_1_0_0_1_n_n = DotDims.plain 2000 128 128 := rfl

/-- The scalar the kernels scale a node's own features by, and the threshold of the positive part. -/
abbrev kOne : EReal := Scalar.ofBits (F := Ideal) .f32 0x3F800000#32
abbrev kZero : EReal := Scalar.ofBits (F := Ideal) .f32 0x00000000#32

/-- A block times the weights plus the bias row, at entry `(p, c)`: the dense layer of row `p`. -/
theorem blockDense {φ₁ φ₂ : FTy} (l : FVec Ideal S2000x128 φ₁) (r : FVec Ideal S128x128 φ₂) (b : FVec Ideal S128 .f32)
    (p : Fin 2000) (c : Fin 128) :
    addf (matmul dot_S2000x128_S128x128_S2000x128_1_0_0_1_n_n none l r (constant (F := Ideal) S2000x128 .f32 0x00000000#32))
        (broadcastTo S2000x128 (shapeCast S1x128 b shapeCasts_S128_S1x128) broadcasts_S1x128_S2000x128) (ix2 p c)
      = denseRow (fun k => l (ix2 p k)) (fun k c => r (ix2 k c)) (fun c => b (ix1 c)) c := by
  rw [dot_eq_plain]
  refine (kernelDensePlain_apply none l r (shapeCast S1x128 b shapeCasts_S128_S1x128) broadcasts_S1x128_S2000x128 p c).trans ?_
  refine congrArg (fun f => denseRow (fun k => l (ix2 p k)) (fun k c => r (ix2 k c)) f c) (funext fun c' => ?_)
  exact Cert.RowBias.castRow_apply b shapeCasts_S128_S1x128 c'

/-- A block times the weights into the zero accumulator, at entry `(p, c)`. -/
theorem blockMatmul {φ₁ φ₂ : FTy} (l : FVec Ideal S2000x128 φ₁) (r : FVec Ideal S128x128 φ₂) (p : Fin 2000) (c : Fin 128) :
    matmul dot_S2000x128_S128x128_S2000x128_1_0_0_1_n_n none l r (constant (F := Ideal) S2000x128 .f32 0x00000000#32) (ix2 p c)
      = ∑ k : Fin 128, l (ix2 p k) * r (ix2 k c) := by
  rw [dot_eq_plain]
  exact Cert.PlainMatmul.matmul_zero_apply (DotDims.plain 2000 128 128) (plain_rank 2000 128 128) (plain_size 2000 128 128)
    (plain_lhs0 2000 128 128) (plain_lhs1 2000 128 128) (plain_rhs0 2000 128 128) (plain_rhs1 2000 128 128) none l r p c

/-- The input projection's block at `(p, c)`. -/
theorem pay0_apply (v0 : Vec Ideal S2000x128 .f32) (v2 : Vec Ideal S128x128 .f32) (v5 : Vec Ideal S128 .f32)
    (p : Fin 2000) (c : Fin 128) :
    k0_pay1 (F := Ideal) v0 v2 v5 (ix2 p c)
      = denseRow (fun k => v0 (ix2 p k)) (fun k c => v2 (ix2 k c)) (fun c => v5 (ix1 c)) c :=
  blockDense (φ₁ := .bf16) (φ₂ := .bf16) v0 v2 v5 p c

/-- A message-passing layer's term on whole blocks (the self-casts dropped). -/
def mlpBlock (v0 : FVec Ideal S2000x128 .bf16) (v3 : FVec Ideal S2000x128 .f32) (v9 : FVec Ideal S128x128 .f32)
    (v12 : FVec Ideal S128 .f32) (v19 : FVec Ideal S128x128 .f32) (v22 : FVec Ideal S128 .f32) : FVec Ideal S2000x128 .bf16 :=
  truncf .bf16 (addf (matmul dot_S2000x128_S128x128_S2000x128_1_0_0_1_n_n none
      (truncf .bf16 (maximumf (addf (matmul dot_S2000x128_S128x128_S2000x128_1_0_0_1_n_n none
          (truncf .bf16 (addf (mulf (extf .f32 v0 bitsLt_bf16_f32) (broadcast S2000x128 kOne)) v3) bitsLt_bf16_f32)
          (truncf .bf16 v9 bitsLt_bf16_f32) (constant (F := Ideal) S2000x128 .f32 0x00000000#32))
        (broadcastTo S2000x128 (shapeCast S1x128 v12 shapeCasts_S128_S1x128) broadcasts_S1x128_S2000x128))
        (broadcast S2000x128 kZero)) bitsLt_bf16_f32)
      (truncf .bf16 v19 bitsLt_bf16_f32) (constant (F := Ideal) S2000x128 .f32 0x00000000#32))
    (broadcastTo S2000x128 (shapeCast S1x128 v22 shapeCasts_S128_S1x128) broadcasts_S1x128_S2000x128)) bitsLt_bf16_f32

/-- That term at `(p, c)` is the node update of row `p`. -/
theorem mlpBlock_apply (v0 : FVec Ideal S2000x128 .bf16) (v3 : FVec Ideal S2000x128 .f32) (v9 : FVec Ideal S128x128 .f32)
    (v12 : FVec Ideal S128 .f32) (v19 : FVec Ideal S128x128 .f32) (v22 : FVec Ideal S128 .f32) (p : Fin 2000) (c : Fin 128) :
    mlpBlock v0 v3 v9 v12 v19 v22 (ix2 p c)
      = mlpRow kOne kZero (fun k => v0 (ix2 p k)) (fun k => v3 (ix2 p k)) (fun k c => v9 (ix2 k c)) (fun c => v12 (ix1 c))
          (fun k c => v19 (ix2 k c)) (fun c => v22 (ix1 c)) c := by
  unfold mlpBlock
  refine (blockDense _ (truncf .bf16 v19 bitsLt_bf16_f32) v22 p c).trans ?_
  unfold mlpRow
  refine congrArg (fun f => denseRow f (fun k c => v19 (ix2 k c)) (fun c => v22 (ix1 c)) c) (funext fun k => ?_)
  refine (congrArg (fun x => max x kZero) (blockDense (truncf .bf16 (addf (mulf (extf .f32 v0 bitsLt_bf16_f32) (broadcast S2000x128 kOne)) v3) bitsLt_bf16_f32)
    (truncf .bf16 v9 bitsLt_bf16_f32) v12 p k)).trans ?_
  rfl

/-- The first message-passing kernel's block is that term. -/
theorem pay1_eq (v0 : Vec Ideal S2000x128 .bf16) (v3 : Vec Ideal S2000x128 .f32) (v9 : Vec Ideal S128x128 .f32)
    (v12 : Vec Ideal S128 .f32) (v19 : Vec Ideal S128x128 .f32) (v22 : Vec Ideal S128 .f32) :
    k1_pay1 (F := Ideal) v0 v3 v9 v12 v19 v22 = mlpBlock v0 v3 v9 v12 v19 v22 := by
  unfold k1_pay1
  dsimp only
  rw [shapeCast_self, shapeCast_self]
  rfl

/-- The second message-passing kernel's block is that term. -/
theorem pay2_eq (v0 : Vec Ideal S2000x128 .bf16) (v3 : Vec Ideal S2000x128 .f32) (v9 : Vec Ideal S128x128 .f32)
    (v12 : Vec Ideal S128 .f32) (v19 : Vec Ideal S128x128 .f32) (v22 : Vec Ideal S128 .f32) :
    k2_pay1 (F := Ideal) v0 v3 v9 v12 v19 v22 = mlpBlock v0 v3 v9 v12 v19 v22 := by
  unfold k2_pay1
  dsimp only
  rw [shapeCast_self, shapeCast_self]
  rfl

/-- The read-out kernel computes the last message-passing layer by the same term. -/
theorem pay3_2_eq (v0 : Vec Ideal S2000x128 .bf16) (v3 : Vec Ideal S2000x128 .f32) (v9 : Vec Ideal S128x128 .f32)
    (v12 : Vec Ideal S128 .f32) (v19 : Vec Ideal S128x128 .f32) (v22 : Vec Ideal S128 .f32) :
    k3_pay2 (F := Ideal) v0 v3 v9 v12 v19 v22 = mlpBlock v0 v3 v9 v12 v19 v22 := by
  unfold k3_pay2
  dsimp only
  rw [shapeCast_self, shapeCast_self]
  rfl

theorem pay3_3_eq (v : Vec Ideal S2000x128 .bf16) : k3_pay3 (F := Ideal) v = v := by
  unfold k3_pay3; exact shapeCast_self v _
theorem pay3_4_eq (v : Vec Ideal S2000x128 .bf16) : k3_pay4 (F := Ideal) v = v := by
  unfold k3_pay4; exact shapeCast_self v _
theorem pay3_5_eq (v : Vec Ideal S2000x128 .bf16) : k3_pay5 (F := Ideal) v = v := by
  unfold k3_pay5; exact shapeCast_self v _
theorem pay3_6_eq (v : Vec Ideal S128x128 .f32) : k3_pay6 (F := Ideal) v = v := by
  unfold k3_pay6; dsimp only; rw [shapeCast_self]; rfl

/-- The read-out's block at `(p, c)`: four products added in order, plus the bias. -/
theorem pay3_1_apply (h3 h0 h1 h2 : FVec Ideal S2000x128 .bf16) (w0 : FVec Ideal S128x128 .bf16)
    (w1 w2 w3 : Vec Ideal S128x128 .f32) (bo : Vec Ideal S128 .f32) (p : Fin 2000) (c : Fin 128) :
    k3_pay1 (F := Ideal) h3 h0 h1 h2 w0 (constant (F := Ideal) S2000x128 .f32 0x00000000#32) w1 w2 w3 bo (ix2 p c)
      = ((((∑ k : Fin 128, h0 (ix2 p k) * w0 (ix2 k c)) + (∑ k : Fin 128, h1 (ix2 p k) * w1 (ix2 k c)))
          + (∑ k : Fin 128, h2 (ix2 p k) * w2 (ix2 k c))) + (∑ k : Fin 128, h3 (ix2 p k) * w3 (ix2 k c))) + bo (ix1 c) := by
  unfold k3_pay1
  rw [shapeCast_self, shapeCast_self, shapeCast_self]
  simp only [addf_apply]
  rw [blockMatmul h0 w0 p c, blockMatmul h1 (truncf .bf16 w1 bitsLt_bf16_f32) p c,
    blockMatmul h2 (truncf .bf16 w2 bitsLt_bf16_f32) p c, blockMatmul h3 (truncf .bf16 w3 bitsLt_bf16_f32) p c,
    Cert.RowBias.bcastRow_apply _ broadcasts_S1x128_S2000x128 p c, Cert.RowBias.castRow_apply bo shapeCasts_S128_S1x128 c]
  rfl

end Cert.KernelIdeal.Pay

end
-- ==== Proof.KReg0.lean ====
/-
  The input projection's launch, read as one array.

  The launch walks the 100000 rows in 50 blocks of 2000; point `t` reads rows `2000 t .. 2000 t + 1999` of the
  features, the whole weights and bias, and writes back the same rows of the result.  Each written row is the dense
  layer of the same row of the features, so the blocks are restrictions of one array, `linArr`, and they tile it.
-/
import proofs.«158009_j18923625906187_2_alg».proof.Proof.Gen.KernelIdeal.Frame
import proofs.«158009_j18923625906187_2_alg».proof.Proof.KPay
import proofs.«158009_j18923625906187_2_alg».proof.Proof.Spec
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen Cert.KernelIdeal.Pay Cert.DenseRow Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature block and the result block move together down the rows; the
    weights and the bias stay. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) ≤ 49 :=
  (by decide +kernel : ∀ t : Fin grid0.N, _)

/-- Every block of rows is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- What point `t` writes back is block `t` of the projection of the feature array. -/
theorem flushed_eq (c : Dev nD) (t : Fin cfg0.N) :
    (dat0 V c).flushed 3 t = ((cfg0.win 3).blk t).view.read (Elt Ideal)
      (linArr (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (pay0_apply _ _ _ p q).trans ?_
  obtain ⟨e0, e1, e2, e3, e4, e5, e6⟩ := idx_facts t
  have h0 : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have h1 : ∀ k c' : Fin 128, ((cfg0.win 1).blk t).view.emb (ix2 k c') = ix2 k c' := fun k c' => by
    funext a; apply Fin.ext
    match a with
    | ⟨0, _⟩ => show win0_1.index t (0 : Fin 2) * 128 + 1 * k.val = k.val; omega
    | ⟨1, _⟩ => show win0_1.index t (1 : Fin 2) * 128 + 1 * c'.val = c'.val; omega
  have h2 : ∀ c' : Fin 128, ((cfg0.win 2).blk t).view.emb (ix1 c') = ix1 c' := fun c' => by
    funext a; apply Fin.ext
    match a with
    | ⟨0, _⟩ => show win0_2.index t (0 : Fin 1) * 128 + 1 * c'.val = c'.val; omega
  have h3 : (((cfg0.win 3).blk t).view.emb (ix2 p q)) 1 = q := Fin.ext (by
    show win0_3.index t (1 : Fin 2) * 128 + 1 * q.val = q.val; omega)
  show denseRow (fun k => V c main_arg0 (((cfg0.win 0).blk t).view.emb (ix2 p k)))
      (fun k c' => V c main_arg2 (((cfg0.win 1).blk t).view.emb (ix2 k c')))
      (fun c' => V c main_arg3 (((cfg0.win 2).blk t).view.emb (ix1 c'))) q
    = denseRow (fun k => V c main_arg0 (ix2 ((((cfg0.win 3).blk t).view.emb (ix2 p q)) 0) k))
      (fun k c' => V c main_arg2 (ix2 k c')) (fun c' => V c main_arg3 (ix1 c')) ((((cfg0.win 3).blk t).view.emb (ix2 p q)) 1)
  rw [h3]
  simp only [h0, h1, h2]
  rfl

/-- An index of the array is in point `t`'s block iff each coordinate is in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- The 50 blocks cover the array: row `r` is in the block of point `r / 2000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the launch is the projection of the feature array as the launch found it. -/
theorem final (c : Dev nD) :
    (dat0 V c).arrAt 3 cfg0.N = linArr (V c main_arg0) (V c main_arg2) (V c main_arg3) :=
  (dat0 V c).arrAt_eq_of_cover 3 _ (fun t _ => flushed_eq V c t) cover

end Cert.KernelIdeal.Reg0

end
-- ==== Proof.KReg1.lean ====
/-
  A message-passing layer's launch, read as one array.

  The launch walks the 100000 rows in 50 blocks of 2000; point `t` reads rows `2000 t .. 2000 t + 1999` of the hidden
  state and of the neighbour sums, the whole weights and biases, and writes back the same rows of the result.  Each
  written row is the node update of the same row of the two inputs, so the blocks are restrictions of one array,
  `mlpArr`, and they tile it.
-/
import proofs.«158009_j18923625906187_2_alg».proof.Proof.Gen.KernelIdeal.Frame
import proofs.«158009_j18923625906187_2_alg».proof.Proof.KPay
import proofs.«158009_j18923625906187_2_alg».proof.Proof.Spec
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen Cert.KernelIdeal.Pay Cert.DenseRow Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the result move together down the rows; the
    weights and the biases stay. -/
theorem idx_facts : ∀ t : Fin cfg1.N, win1_0.index t (0 : Fin 2) = win1_6.index t (0 : Fin 2)
    ∧ win1_0.index t (1 : Fin 2) = 0 ∧ win1_1.index t (0 : Fin 2) = win1_6.index t (0 : Fin 2) ∧ win1_1.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0
    ∧ win1_6.index t (1 : Fin 2) = 0 ∧ win1_6.index t (0 : Fin 2) ≤ 49 :=
  (by decide +kernel : ∀ t : Fin grid1.N, _)

/-- Every block of rows is some point's. -/
theorem idx_onto : ∀ q0 : Fin 50, ∃ t : Fin cfg1.N, win1_6.index t = ![q0.val, 0] :=
  (by decide +kernel : ∀ q0 : Fin 50, ∃ t : Fin grid1.N, win1_6.index t = ![q0.val, 0])

/-- What point `t` writes back is block `t` of the layer's update of the two input arrays. -/
theorem flushed_eq (c : Dev nD) (t : Fin cfg1.N) :
    (dat1 V c).flushed 6 t = ((cfg1.win 6).blk t).view.read (Elt Ideal)
      (mlpArr kOne kZero (V c main_v4) (V c main_v15) (V c main_arg4) (V c main_arg5) (V c main_arg6) (V c main_arg7)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  rw [pay1_eq]
  refine (mlpBlock_apply _ _ _ _ _ _ p q).trans ?_
  obtain ⟨e0, e1, e2, e3, e4, e5, e6, e7, e8, e9, e10, e11⟩ := idx_facts t
  have h0 : ∀ k : Fin 128, ((cfg1.win 0).blk t).view.emb (ix2 p k) = ix2 ((((cfg1.win 6).blk t).view.emb (ix2 p q)) 0) k := fun k => by
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * k.val = k.val; omega
  have h1 : ∀ k : Fin 128, ((cfg1.win 1).blk t).view.emb (ix2 p k) = ix2 ((((cfg1.win 6).blk t).view.emb (ix2 p q)) 0) k := fun k => by
    funext a; apply Fin.ext
    match a with
    | ⟨0, _⟩ => show win1_1.index t (0 : Fin 2) * 2000 + 1 * p.val = win1_6.index t (0 : Fin 2) * 2000 + 1 * p.val; omega
    | ⟨1, _⟩ => show win1_1.index t (1 : Fin 2) * 128 + 1 * k.val = k.val; omega
  have h2 : ∀ k c' : Fin 128, ((cfg1.win 2).blk t).view.emb (ix2 k c') = ix2 k c' := fun k c' => by
    funext a; apply Fin.ext
    match a with
    | ⟨0, _⟩ => show win1_2.index t (0 : Fin 2) * 128 + 1 * k.val = k.val; omega
    | ⟨1, _⟩ => show win1_2.index t (1 : Fin 2) * 128 + 1 * c'.val = c'.val; omega
  have h3 : ∀ c' : Fin 128, ((cfg1.win 3).blk t).view.emb (ix1 c') = ix1 c' := fun c' => by
    funext a; apply Fin.ext
    match a with
    | ⟨0, _⟩ => show win1_3.index t (0 : Fin 1) * 128 + 1 * c'.val = c'.val; omega
  have h4 : ∀ k c' : Fin 128, ((cfg1.win 4).blk t).view.emb (ix2 k c') = ix2 k c' := fun k c' => by
    funext a; apply Fin.ext
    match a with
    | ⟨0, _⟩ => show win1_4.index t (0 : Fin 2) * 128 + 1 * k.val = k.val; omega
    | ⟨1, _⟩ => show win1_4.index t (1 : Fin 2) * 128 + 1 * c'.val = c'.val; omega
  have h5 : ∀ c' : Fin 128, ((cfg1.win 5).blk t).view.emb (ix1 c') = ix1 c' := fun c' => by
    funext a; apply Fin.ext
    match a with
    | ⟨0, _⟩ => show win1_5.index t (0 : Fin 1) * 128 + 1 * c'.val = c'.val; omega
  have h6 : (((cfg1.win 6).blk t).view.emb (ix2 p q)) 1 = q := Fin.ext (by
    show win1_6.index t (1 : Fin 2) * 128 + 1 * q.val = q.val; omega)
  show mlpRow kOne kZero (fun k => V c main_v4 (((cfg1.win 0).blk t).view.emb (ix2 p k)))
      (fun k => V c main_v15 (((cfg1.win 1).blk t).view.emb (ix2 p k)))
      (fun k c' => V c main_arg4 (((cfg1.win 2).blk t).view.emb (ix2 k c')))
      (fun c' => V c main_arg5 (((cfg1.win 3).blk t).view.emb (ix1 c')))
      (fun k c' => V c main_arg6 (((cfg1.win 4).blk t).view.emb (ix2 k c')))
      (fun c' => V c main_arg7 (((cfg1.win 5).blk t).view.emb (ix1 c'))) q
    = mlpRow kOne kZero (fun k => V c main_v4 (ix2 ((((cfg1.win 6).blk t).view.emb (ix2 p q)) 0) k))
      (fun k => V c main_v15 (ix2 ((((cfg1.win 6).blk t).view.emb (ix2 p q)) 0) k))
      (fun k c' => V c main_arg4 (ix2 k c')) (fun c' => V c main_arg5 (ix1 c'))
      (fun k c' => V c main_arg6 (ix2 k c')) (fun c' => V c main_arg7 (ix1 c')) ((((cfg1.win 6).blk t).view.emb (ix2 p q)) 1)
  exact mlpRow_congr (funext fun k => congrArg (V c main_v4) (h0 k)) (funext fun k => congrArg (V c main_v15) (h1 k))
    (funext fun k => funext fun c' => congrArg (V c main_arg4) (h2 k c')) (funext fun c' => congrArg (V c main_arg5) (h3 c'))
    (funext fun k => funext fun c' => congrArg (V c main_arg6) (h4 k c')) (funext fun c' => congrArg (V c main_arg7) (h5 c')) h6.symm

/-- An index of the array is in point `t`'s block iff each coordinate is in the block's range. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v16).slice (win1_6.rect t)).set ↔ _
  rw [View.set_slice_whole, Rect.mem_set_unit]
  exact Iff.rfl

/-- The 50 blocks cover the array: row `r` is in the block of point `r / 2000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after the launch is the layer's update of the two input arrays as the launch found them. -/
theorem final (c : Dev nD) :
    (dat1 V c).arrAt 6 cfg1.N
      = mlpArr kOne kZero (V c main_v4) (V c main_v15) (V c main_arg4) (V c main_arg5) (V c main_arg6) (V c main_arg7) :=
  (dat1 V c).arrAt_eq_of_cover 6 _ (fun t _ => flushed_eq V c t) cover

end Cert.KernelIdeal.Reg1

end
-- ==== Proof.KReg2.lean ====
/-
  A message-passing layer's launch, read as one array.

  The launch walks the 100000 rows in 50 blocks of 2000; point `t` reads rows `2000 t .. 2000 t + 1999` of the hidden
  state and of the neighbour sums, the whole weights and biases, and writes back the same rows of the result.  Each
  written row is the node update of the same row of the two inputs, so the blocks are restrictions of one array,
  `mlpArr`, and they tile it.
-/
import proofs.«158009_j18923625906187_2_alg».proof.Proof.Gen.KernelIdeal.Frame
import proofs.«158009_j18923625906187_2_alg».proof.Proof.KPay
import proofs.«158009_j18923625906187_2_alg».proof.Proof.Spec
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen Cert.KernelIdeal.Pay Cert.DenseRow Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs and the result move together down the rows; the
    weights and the biases stay. -/
theorem idx_facts : ∀ t : Fin cfg2.N, win2_0.index t (0 : Fin 2) = win2_6.index t (0 : Fin 2)
    ∧ win2_0.index t (1 : Fin 2) = 0 ∧ win2_1.index t (0 : Fin 2) = win2_6.index t (0 : Fin 2) ∧ win2_1.index t (1 : Fin 2) = 0
    ∧ win2_2.index t (0 : Fin 2) = 0 ∧ win2_2.index t (1 : Fin 2) = 0 ∧ win2_3.index t (0 : Fin 1) = 0
    ∧ win2_4.index t (0 : Fin 2) = 0 ∧ win2_4.index t (1 : Fin 2) = 0 ∧ win2_5.index t (0 : Fin 1) = 0
    ∧ win2_6.index t (1 : Fin 2) = 0 ∧ win2_6.index t (0 : Fin 2) ≤ 49 :=
  (by decide +kernel : ∀ t : Fin grid2.N, _)

/-- Every block of rows is some point's. -/
theorem idx_onto : ∀ q0 : Fin 50, ∃ t : Fin cfg2.N, win2_6.index t = ![q0.val, 0] :=
  (by decide +kernel : ∀ q0 : Fin 50, ∃ t : Fin grid2.N, win2_6.index t = ![q0.val, 0])

/-- What point `t` writes back is block `t` of the layer's update of the two input arrays. -/
theorem flushed_eq (c : Dev nD) (t : Fin cfg2.N) :
    (dat2 V c).flushed 6 t = ((cfg2.win 6).blk t).view.read (Elt Ideal)
      (mlpArr kOne kZero (V c main_v16) (V c main_v27) (V c main_arg8) (V c main_arg9) (V c main_arg10) (V c main_arg11)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  rw [pay2_eq]
  refine (mlpBlock_apply _ _ _ _ _ _ p q).trans ?_
  obtain ⟨e0, e1, e2, e3, e4, e5, e6, e7, e8, e9, e10, e11⟩ := idx_facts t
  have h0 : ∀ k : Fin 128, ((cfg2.win 0).blk t).view.emb (ix2 p k) = ix2 ((((cfg2.win 6).blk t).view.emb (ix2 p q)) 0) k := fun k => by
    funext a; apply Fin.ext
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  have h1 : ∀ k : Fin 128, ((cfg2.win 1).blk t).view.emb (ix2 p k) = ix2 ((((cfg2.win 6).blk t).view.emb (ix2 p q)) 0) k := fun k => by
    funext a; apply Fin.ext
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  have h2 : ∀ k c' : Fin 128, ((cfg2.win 2).blk t).view.emb (ix2 k c') = ix2 k c' := fun k c' => by
    funext a; apply Fin.ext
    match a with
    | ⟨0, _⟩ => show win2_2.index t (0 : Fin 2) * 128 + 1 * k.val = k.val; omega
    | ⟨1, _⟩ => show win2_2.index t (1 : Fin 2) * 128 + 1 * c'.val = c'.val; omega
  have h3 : ∀ c' : Fin 128, ((cfg2.win 3).blk t).view.emb (ix1 c') = ix1 c' := fun c' => by
    funext a; apply Fin.ext
    match a with
    | ⟨0, _⟩ => show win2_3.index t (0 : Fin 1) * 128 + 1 * c'.val = c'.val; omega
  have h4 : ∀ k c' : Fin 128, ((cfg2.win 4).blk t).view.emb (ix2 k c') = ix2 k c' := fun k c' => by
    funext a; apply Fin.ext
    match a with
    | ⟨0, _⟩ => show win2_4.index t (0 : Fin 2) * 128 + 1 * k.val = k.val; omega
    | ⟨1, _⟩ => show win2_4.index t (1 : Fin 2) * 128 + 1 * c'.val = c'.val; omega
  have h5 : ∀ c' : Fin 128, ((cfg2.win 5).blk t).view.emb (ix1 c') = ix1 c' := fun c' => by
    funext a; apply Fin.ext
    match a with
    | ⟨0, _⟩ => show win2_5.index t (0 : Fin 1) * 128 + 1 * c'.val = c'.val; omega
  have h6 : (((cfg2.win 6).blk t).view.emb (ix2 p q)) 1 = q := Fin.ext (by
    show win2_6.index t (1 : Fin 2) * 128 + 1 * q.val = q.val; omega)
  show mlpRow kOne kZero (fun k => V c main_v16 (((cfg2.win 0).blk t).view.emb (ix2 p k)))
      (fun k => V c main_v27 (((cfg2.win 1).blk t).view.emb (ix2 p k)))
      (fun k c' => V c main_arg8 (((cfg2.win 2).blk t).view.emb (ix2 k c')))
      (fun c' => V c main_arg9 (((cfg2.win 3).blk t).view.emb (ix1 c')))
      (fun k c' => V c main_arg10 (((cfg2.win 4).blk t).view.emb (ix2 k c')))
      (fun c' => V c main_arg11 (((cfg2.win 5).blk t).view.emb (ix1 c'))) q
    = mlpRow kOne kZero (fun k => V c main_v16 (ix2 ((((cfg2.win 6).blk t).view.emb (ix2 p q)) 0) k))
      (fun k => V c main_v27 (ix2 ((((cfg2.win 6).blk t).view.emb (ix2 p q)) 0) k))
      (fun k c' => V c main_arg8 (ix2 k c')) (fun c' => V c main_arg9 (ix1 c'))
      (fun k c' => V c main_arg10 (ix2 k c')) (fun c' => V c main_arg11 (ix1 c')) ((((cfg2.win 6).blk t).view.emb (ix2 p q)) 1)
  exact mlpRow_congr (funext fun k => congrArg (V c main_v16) (h0 k)) (funext fun k => congrArg (V c main_v27) (h1 k))
    (funext fun k => funext fun c' => congrArg (V c main_arg8) (h2 k c')) (funext fun c' => congrArg (V c main_arg9) (h3 c'))
    (funext fun k => funext fun c' => congrArg (V c main_arg10) (h4 k c')) (funext fun c' => congrArg (V c main_arg11) (h5 c')) h6.symm

/-- An index of the array is in point `t`'s block iff each coordinate is in the block's range. -/
theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v28).slice (win2_6.rect t)).set ↔ _
  rw [View.set_slice_whole, Rect.mem_set_unit]
  exact Iff.rfl

/-- The 50 blocks cover the array: row `r` is in the block of point `r / 2000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the launch is the layer's update of the two input arrays as the launch found them. -/
theorem final (c : Dev nD) :
    (dat2 V c).arrAt 6 cfg2.N
      = mlpArr kOne kZero (V c main_v16) (V c main_v27) (V c main_arg8) (V c main_arg9) (V c main_arg10) (V c main_arg11) :=
  (dat2 V c).arrAt_eq_of_cover 6 _ (fun t _ => flushed_eq V c t) cover

end Cert.KernelIdeal.Reg2

end
-- ==== Proof.KReg3.lean ====
/-
  The read-out launch, read as one array.

  The launch walks the 100000 rows in 50 blocks of 2000; point `t` reads rows `2000 t .. 2000 t + 1999` of the three
  stored hidden states and of the last neighbour sums, the whole weights and biases, and writes back the same rows of the
  result.  A written row is the read-out of the node's four hidden states, the fourth computed in place by the last
  message-passing layer, so the blocks are restrictions of one array, `outKArr`, and they tile it.
-/
import proofs.«158009_j18923625906187_2_alg».proof.Proof.Gen.KernelIdeal.Frame
import proofs.«158009_j18923625906187_2_alg».proof.Proof.KPay
import proofs.«158009_j18923625906187_2_alg».proof.Proof.Spec
import Idealize.ShloMosaic.Lib.Pipeline.Value
import Idealize.ShloMosaic.Lib.ValueIdx

set_option maxRecDepth 16384

noncomputable section

open scoped BigOperators

namespace Cert.KernelIdeal.Reg3

open Cert.KernelIdeal Cert.KernelIdeal.Gen Cert.KernelIdeal.Pay Cert.DenseRow Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the four row-blocked inputs and the result move together down the rows; the
    weights and the biases stay. -/
theorem idx_facts : ∀ t : Fin cfg3.N, win3_0.index t (0 : Fin 2) = win3_13.index t (0 : Fin 2)
    ∧ win3_0.index t (1 : Fin 2) = 0
    ∧ win3_1.index t (0 : Fin 2) = win3_13.index t (0 : Fin 2)
    ∧ win3_1.index t (1 : Fin 2) = 0
    ∧ win3_2.index t (0 : Fin 2) = win3_13.index t (0 : Fin 2)
    ∧ win3_2.index t (1 : Fin 2) = 0
    ∧ win3_3.index t (0 : Fin 2) = win3_13.index t (0 : Fin 2)
    ∧ win3_3.index t (1 : Fin 2) = 0
    ∧ win3_4.index t (0 : Fin 2) = 0
    ∧ win3_4.index t (1 : Fin 2) = 0
    ∧ win3_6.index t (0 : Fin 2) = 0
    ∧ win3_6.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_5.index t (0 : Fin 1) = 0
    ∧ win3_7.index t (0 : Fin 1) = 0
    ∧ win3_12.index t (0 : Fin 1) = 0
    ∧ win3_13.index t (1 : Fin 2) = 0
    ∧ win3_13.index t (0 : Fin 2) ≤ 49 :=
  (by decide +kernel : ∀ t : Fin grid3.N, _)

/-- Every block of rows is some point's. -/
theorem idx_onto : ∀ q0 : Fin 50, ∃ t : Fin cfg3.N, win3_13.index t = ![q0.val, 0] :=
  (by decide +kernel : ∀ q0 : Fin 50, ∃ t : Fin grid3.N, win3_13.index t = ![q0.val, 0])

/-- The block's value at `(p, q)` from the loaded blocks: the read-out of row `p`. -/
theorem pay_apply (x0 x1 x2 : Vec Ideal S2000x128 .bf16) (x3 : Vec Ideal S2000x128 .f32) (x4 : Vec Ideal S128x128 .f32)
    (x5 : Vec Ideal S128 .f32) (x6 : Vec Ideal S128x128 .f32) (x7 : Vec Ideal S128 .f32) (x8 x9 x10 x11 : Vec Ideal S128x128 .f32)
    (x12 : Vec Ideal S128 .f32) (p : Fin 2000) (q : Fin 128) :
    k3_pay1 (F := Ideal) (k3_pay2 x2 x3 x4 x5 x6 x7) (k3_pay3 x0) (k3_pay4 x1) (k3_pay5 x2) (k3_pay6 x8)
        (constant (F := Ideal) S2000x128 .f32 0x00000000#32) x9 x10 x11 x12 (ix2 p q)
      = out4Row (fun k => x0 (ix2 p k)) (fun k => x1 (ix2 p k)) (fun k => x2 (ix2 p k))
          (mlpRow kOne kZero (fun k => x2 (ix2 p k)) (fun k => x3 (ix2 p k)) (fun k c => x4 (ix2 k c)) (fun c => x5 (ix1 c))
            (fun k c => x6 (ix2 k c)) (fun c => x7 (ix1 c)))
          (fun k c => x8 (ix2 k c)) (fun k c => x9 (ix2 k c)) (fun k c => x10 (ix2 k c)) (fun k c => x11 (ix2 k c))
          (fun c => x12 (ix1 c)) q := by
  rw [pay3_2_eq, pay3_3_eq, pay3_4_eq, pay3_5_eq, pay3_6_eq]
  refine (pay3_1_apply (mlpBlock x2 x3 x4 x5 x6 x7) x0 x1 x2 x8 x9 x10 x11 x12 p q).trans ?_
  unfold out4Row
  simp only [mlpBlock_apply]

set_option maxHeartbeats 2000000 in
/-- What point `t` writes back is block `t` of the read-out of the input arrays. -/
theorem flushed_eq (c : Dev nD) (t : Fin cfg3.N) :
    (dat3 V c).flushed 13 t = ((cfg3.win 13).blk t).view.read (Elt Ideal)
      (outKArr kOne kZero (V c main_v4) (V c main_v16) (V c main_v28) (V c main_v39) (V c main_arg12) (V c main_arg13)
        (V c main_arg14) (V c main_arg15) (V c main_v40) (V c main_v41) (V c main_v42) (V c main_v43) (V c main_arg17)) := by
  show (cfg3.win 13).cut (grid3.coords t) ((dat3 V c).after 13 t) = _
  rw [after3_13]
  unfold out3_13
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (pay_apply _ _ _ _ _ _ _ _ _ _ _ _ _ p q).trans ?_
  obtain ⟨e0, e1, e2, e3, e4, e5, e6, e7, e8, e9, e10, e11, e12, e13, e14, e15, e16, e17, e18, e19, e20, e21, e22, e23, e24⟩ := idx_facts t
  have h0 : ∀ k : Fin 128, ((cfg3.win 0).blk t).view.emb (ix2 p k) = ix2 ((((cfg3.win 13).blk t).view.emb (ix2 p q)) 0) k := fun k => by
    funext a; apply Fin.ext
    match a with
    | ⟨0, _⟩ => show win3_0.index t (0 : Fin 2) * 2000 + 1 * p.val = win3_13.index t (0 : Fin 2) * 2000 + 1 * p.val; omega
    | ⟨1, _⟩ => show win3_0.index t (1 : Fin 2) * 128 + 1 * k.val = k.val; omega
  have h1 : ∀ k : Fin 128, ((cfg3.win 1).blk t).view.emb (ix2 p k) = ix2 ((((cfg3.win 13).blk t).view.emb (ix2 p q)) 0) k := fun k => by
    funext a; apply Fin.ext
    match a with
    | ⟨0, _⟩ => show win3_1.index t (0 : Fin 2) * 2000 + 1 * p.val = win3_13.index t (0 : Fin 2) * 2000 + 1 * p.val; omega
    | ⟨1, _⟩ => show win3_1.index t (1 : Fin 2) * 128 + 1 * k.val = k.val; omega
  have h2 : ∀ k : Fin 128, ((cfg3.win 2).blk t).view.emb (ix2 p k) = ix2 ((((cfg3.win 13).blk t).view.emb (ix2 p q)) 0) k := fun k => by
    funext a; apply Fin.ext
    match a with
    | ⟨0, _⟩ => show win3_2.index t (0 : Fin 2) * 2000 + 1 * p.val = win3_13.index t (0 : Fin 2) * 2000 + 1 * p.val; omega
    | ⟨1, _⟩ => show win3_2.index t (1 : Fin 2) * 128 + 1 * k.val = k.val; omega
  have h3 : ∀ k : Fin 128, ((cfg3.win 3).blk t).view.emb (ix2 p k) = ix2 ((((cfg3.win 13).blk t).view.emb (ix2 p q)) 0) k := fun k => by
    funext a; apply Fin.ext
    match a with
    | ⟨0, _⟩ => show win3_3.index t (0 : Fin 2) * 2000 + 1 * p.val = win3_13.index t (0 : Fin 2) * 2000 + 1 * p.val; omega
    | ⟨1, _⟩ => show win3_3.index t (1 : Fin 2) * 128 + 1 * k.val = k.val; omega
  have h4 : ∀ k c' : Fin 128, ((cfg3.win 4).blk t).view.emb (ix2 k c') = ix2 k c' := fun k c' => by
    funext a; apply Fin.ext
    match a with
    | ⟨0, _⟩ => show win3_4.index t (0 : Fin 2) * 128 + 1 * k.val = k.val; omega
    | ⟨1, _⟩ => show win3_4.index t (1 : Fin 2) * 128 + 1 * c'.val = c'.val; omega
  have h6 : ∀ k c' : Fin 128, ((cfg3.win 6).blk t).view.emb (ix2 k c') = ix2 k c' := fun k c' => by
    funext a; apply Fin.ext
    match a with
    | ⟨0, _⟩ => show win3_6.index t (0 : Fin 2) * 128 + 1 * k.val = k.val; omega
    | ⟨1, _⟩ => show win3_6.index t (1 : Fin 2) * 128 + 1 * c'.val = c'.val; omega
  have h8 : ∀ k c' : Fin 128, ((cfg3.win 8).blk t).view.emb (ix2 k c') = ix2 k c' := fun k c' => by
    funext a; apply Fin.ext
    match a with
    | ⟨0, _⟩ => show win3_8.index t (0 : Fin 2) * 128 + 1 * k.val = k.val; omega
    | ⟨1, _⟩ => show win3_8.index t (1 : Fin 2) * 128 + 1 * c'.val = c'.val; omega
  have h9 : ∀ k c' : Fin 128, ((cfg3.win 9).blk t).view.emb (ix2 k c') = ix2 k c' := fun k c' => by
    funext a; apply Fin.ext
    match a with
    | ⟨0, _⟩ => show win3_9.index t (0 : Fin 2) * 128 + 1 * k.val = k.val; omega
    | ⟨1, _⟩ => show win3_9.index t (1 : Fin 2) * 128 + 1 * c'.val = c'.val; omega
  have h10 : ∀ k c' : Fin 128, ((cfg3.win 10).blk t).view.emb (ix2 k c') = ix2 k c' := fun k c' => by
    funext a; apply Fin.ext
    match a with
    | ⟨0, _⟩ => show win3_10.index t (0 : Fin 2) * 128 + 1 * k.val = k.val; omega
    | ⟨1, _⟩ => show win3_10.index t (1 : Fin 2) * 128 + 1 * c'.val = c'.val; omega
  have h11 : ∀ k c' : Fin 128, ((cfg3.win 11).blk t).view.emb (ix2 k c') = ix2 k c' := fun k c' => by
    funext a; apply Fin.ext
    match a with
    | ⟨0, _⟩ => show win3_11.index t (0 : Fin 2) * 128 + 1 * k.val = k.val; omega
    | ⟨1, _⟩ => show win3_11.index t (1 : Fin 2) * 128 + 1 * c'.val = c'.val; omega
  have h5 : ∀ c' : Fin 128, ((cfg3.win 5).blk t).view.emb (ix1 c') = ix1 c' := fun c' => by
    funext a; apply Fin.ext
    match a with
    | ⟨0, _⟩ => show win3_5.index t (0 : Fin 1) * 128 + 1 * c'.val = c'.val; omega
  have h7 : ∀ c' : Fin 128, ((cfg3.win 7).blk t).view.emb (ix1 c') = ix1 c' := fun c' => by
    funext a; apply Fin.ext
    match a with
    | ⟨0, _⟩ => show win3_7.index t (0 : Fin 1) * 128 + 1 * c'.val = c'.val; omega
  have h12 : ∀ c' : Fin 128, ((cfg3.win 12).blk t).view.emb (ix1 c') = ix1 c' := fun c' => by
    funext a; apply Fin.ext
    match a with
    | ⟨0, _⟩ => show win3_12.index t (0 : Fin 1) * 128 + 1 * c'.val = c'.val; omega
  have h13 : (((cfg3.win 13).blk t).view.emb (ix2 p q)) 1 = q := Fin.ext (by
    show win3_13.index t (1 : Fin 2) * 128 + 1 * q.val = q.val; omega)
  show out4Row (fun k => V c main_v4 (((cfg3.win 0).blk t).view.emb (ix2 p k))) (fun k => V c main_v16 (((cfg3.win 1).blk t).view.emb (ix2 p k))) (fun k => V c main_v28 (((cfg3.win 2).blk t).view.emb (ix2 p k)))
      (mlpRow kOne kZero (fun k => V c main_v28 (((cfg3.win 2).blk t).view.emb (ix2 p k))) (fun k => V c main_v39 (((cfg3.win 3).blk t).view.emb (ix2 p k))) (fun k c' => V c main_arg12 (((cfg3.win 4).blk t).view.emb (ix2 k c'))) (fun c' => V c main_arg13 (((cfg3.win 5).blk t).view.emb (ix1 c'))) (fun k c' => V c main_arg14 (((cfg3.win 6).blk t).view.emb (ix2 k c'))) (fun c' => V c main_arg15 (((cfg3.win 7).blk t).view.emb (ix1 c'))))
      (fun k c' => V c main_v40 (((cfg3.win 8).blk t).view.emb (ix2 k c'))) (fun k c' => V c main_v41 (((cfg3.win 9).blk t).view.emb (ix2 k c'))) (fun k c' => V c main_v42 (((cfg3.win 10).blk t).view.emb (ix2 k c'))) (fun k c' => V c main_v43 (((cfg3.win 11).blk t).view.emb (ix2 k c'))) (fun c' => V c main_arg17 (((cfg3.win 12).blk t).view.emb (ix1 c'))) q
    = out4Row (fun k => V c main_v4 (ix2 ((((cfg3.win 13).blk t).view.emb (ix2 p q)) 0) k)) (fun k => V c main_v16 (ix2 ((((cfg3.win 13).blk t).view.emb (ix2 p q)) 0) k)) (fun k => V c main_v28 (ix2 ((((cfg3.win 13).blk t).view.emb (ix2 p q)) 0) k))
      (mlpRow kOne kZero (fun k => V c main_v28 (ix2 ((((cfg3.win 13).blk t).view.emb (ix2 p q)) 0) k)) (fun k => V c main_v39 (ix2 ((((cfg3.win 13).blk t).view.emb (ix2 p q)) 0) k)) (fun k c' => V c main_arg12 (ix2 k c')) (fun c' => V c main_arg13 (ix1 c')) (fun k c' => V c main_arg14 (ix2 k c')) (fun c' => V c main_arg15 (ix1 c')))
      (fun k c' => V c main_v40 (ix2 k c')) (fun k c' => V c main_v41 (ix2 k c')) (fun k c' => V c main_v42 (ix2 k c')) (fun k c' => V c main_v43 (ix2 k c')) (fun c' => V c main_arg17 (ix1 c')) ((((cfg3.win 13).blk t).view.emb (ix2 p q)) 1)
  exact out4Row_congr (funext fun k => congrArg (V c main_v4) (h0 k)) (funext fun k => congrArg (V c main_v16) (h1 k)) (funext fun k => congrArg (V c main_v28) (h2 k))
    (funext fun c'' => mlpRow_congr (funext fun k => congrArg (V c main_v28) (h2 k)) (funext fun k => congrArg (V c main_v39) (h3 k))
      (funext fun k => funext fun c' => congrArg (V c main_arg12) (h4 k c')) (funext fun c' => congrArg (V c main_arg13) (h5 c'))
      (funext fun k => funext fun c' => congrArg (V c main_arg14) (h6 k c')) (funext fun c' => congrArg (V c main_arg15) (h7 c')) rfl)
    (funext fun k => funext fun c' => congrArg (V c main_v40) (h8 k c')) (funext fun k => funext fun c' => congrArg (V c main_v41) (h9 k c'))
    (funext fun k => funext fun c' => congrArg (V c main_v42) (h10 k c')) (funext fun k => funext fun c' => congrArg (V c main_v43) (h11 k c')) (funext fun c' => congrArg (V c main_arg17) (h12 c')) h13.symm

/-- An index of the array is in point `t`'s block iff each coordinate is in the block's range. -/
theorem mem_blk (t : Fin cfg3.N) (i : S100000x128.Idx) :
    i ∈ ((cfg3.win 13).blk t).view.set ↔ ∀ a : Fin 2, win3_13.index t a * S2000x128.size a ≤ (i a).val ∧ (i a).val < win3_13.index t a * S2000x128.size a + S2000x128.size a := by
  show i ∈ ((View.whole main_v44).slice (win3_13.rect t)).set ↔ _
  rw [View.set_slice_whole, Rect.mem_set_unit]
  exact Iff.rfl

/-- The 50 blocks cover the array: row `r` is in the block of point `r / 2000`. -/
theorem cover (i : S100000x128.Idx) : ∃ t : Fin cfg3.N, (cfg3.win 13).flush t = true ∧ i ∈ ((cfg3.win 13).blk t).view.set := by
  have hi0 : (i 0).val < 100000 := (i 0).isLt
  have hi1 : (i 1).val < 128 := (i 1).isLt
  obtain ⟨t, ht⟩ := idx_onto ⟨(i 0).val / 2000, by omega⟩
  have q0 : win3_13.index t (0 : Fin 2) = (i 0).val / 2000 := congrFun ht 0
  have q1 : win3_13.index t (1 : Fin 2) = 0 := congrFun ht 1
  refine ⟨t, flush3_13 t, ?_⟩
  rw [mem_blk]
  intro a
  match a with
  | ⟨0, _⟩ => show win3_13.index t (0 : Fin 2) * 2000 ≤ (i 0).val ∧ (i 0).val < win3_13.index t (0 : Fin 2) * 2000 + 2000; omega
  | ⟨1, _⟩ => show win3_13.index t (1 : Fin 2) * 128 ≤ (i 1).val ∧ (i 1).val < win3_13.index t (1 : Fin 2) * 128 + 128; omega

/-- The result array after the launch is the read-out of the input arrays as the launch found them. -/
theorem final (c : Dev nD) :
    (dat3 V c).arrAt 13 cfg3.N
      = outKArr kOne kZero (V c main_v4) (V c main_v16) (V c main_v28) (V c main_v39) (V c main_arg12) (V c main_arg13)
        (V c main_arg14) (V c main_arg15) (V c main_v40) (V c main_v41) (V c main_v42) (V c main_v43) (V c main_arg17) :=
  (dat3 V c).arrAt_eq_of_cover 13 _ (fun t _ => flushed_eq V c t) cover

end Cert.KernelIdeal.Reg3

end
-- ==== Proof.KHost.lean ====
/-
  The host side of the kernel program as functions of arrays, and the whole program's result as one function of its
  eighteen arguments.

  Between the launches the host gathers, for every edge, the hidden-state row of the edge's source node (a negative index
  counted from the end, as array indexing does), and adds it into the row of the edge's target node, starting from zero:
  `aggK`.  The two index vectors are the two rows of the edge list: `srcOf`, `dstOf`.  Before the last launch the
  read-out matrix is cut into its four blocks of 128 rows: `woBlock`.  `kernelOut` chains the launches' arrays
  (`linArr`, `mlpArr`, `outKArr`) through these.
-/
import proofs.«158009_j18923625906187_2_alg».proof.KernelIdeal
import proofs.«158009_j18923625906187_2_alg».proof.Proof.Spec
import proofs.«158009_j18923625906187_2_alg».proof.Proof.KPay

noncomputable section

namespace Cert.KernelIdeal.HostK

open Cert.KernelIdeal Cert.GinSpec Cert.KernelIdeal.Pay
open Idealize.ShloMosaic Idealize.ShloMosaic.TcCoe
open Cert.KernelIdeal.Facts₀ Cert.KernelIdeal.Facts

/-- The edges' source nodes: row 0 of the edge list, flat. -/
def srcOf (e : IVec S2x1600000 32) : IVec S1600000 32 :=
  shapeCast _ (extractStridedSlice S1x1600000 ![0, 0] e slices_S2x1600000_S1x1600000_0_0) shapeCasts_S1x1600000_S1600000

/-- The edges' target nodes: row 1 of the edge list, flat. -/
def dstOf (e : IVec S2x1600000 32) : IVec S1600000 32 :=
  shapeCast _ (extractStridedSlice S1x1600000 ![1, 0] e slices_S2x1600000_S1x1600000_1_0) shapeCasts_S1x1600000_S1600000

/-- The neighbour sums: for every edge the source node's row of `h`, added into the target node's row, from zero. -/
def aggK (h : FVec Ideal S100000x128 .bf16) (s d : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf .f32 (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- The four blocks of 128 rows of the read-out matrix. -/
def woBlock0 (w : FVec Ideal S512x128 .f32) : FVec Ideal S128x128 .f32 := extractStridedSlice S128x128 ![0, 0] w slices_S512x128_S128x128_0_0
def woBlock1 (w : FVec Ideal S512x128 .f32) : FVec Ideal S128x128 .f32 := extractStridedSlice S128x128 ![128, 0] w slices_S512x128_S128x128_128_0
def woBlock2 (w : FVec Ideal S512x128 .f32) : FVec Ideal S128x128 .f32 := extractStridedSlice S128x128 ![256, 0] w slices_S512x128_S128x128_256_0
def woBlock3 (w : FVec Ideal S512x128 .f32) : FVec Ideal S128x128 .f32 := extractStridedSlice S128x128 ![384, 0] w slices_S512x128_S128x128_384_0

section Chain

variable (x0 : FVec Ideal S100000x128 .f32) (x1 : IVec S2x1600000 32) (x2 : FVec Ideal S128x128 .f32) (x3 : FVec Ideal S128 .f32)
  (x4 : FVec Ideal S128x128 .f32) (x5 : FVec Ideal S128 .f32) (x6 : FVec Ideal S128x128 .f32) (x7 : FVec Ideal S128 .f32)
  (x8 : FVec Ideal S128x128 .f32) (x9 : FVec Ideal S128 .f32) (x10 : FVec Ideal S128x128 .f32) (x11 : FVec Ideal S128 .f32)
  (x12 : FVec Ideal S128x128 .f32) (x13 : FVec Ideal S128 .f32) (x14 : FVec Ideal S128x128 .f32) (x15 : FVec Ideal S128 .f32)
  (x16 : FVec Ideal S512x128 .f32) (x17 : FVec Ideal S128 .f32)

/-- The hidden state after the input projection. -/
def hid0 : FVec Ideal S100000x128 .bf16 := linArr x0 x2 x3
/-- The first neighbour sums. -/
def agg0 : FVec Ideal S100000x128 .f32 := aggK (hid0 x0 x2 x3) (srcOf x1) (dstOf x1)
/-- The hidden state after the first message-passing layer. -/
def hid1 : FVec Ideal S100000x128 .bf16 := mlpArr kOne kZero (hid0 x0 x2 x3) (agg0 x0 x1 x2 x3) x4 x5 x6 x7
/-- The second neighbour sums. -/
def agg1 : FVec Ideal S100000x128 .f32 := aggK (hid1 x0 x1 x2 x3 x4 x5 x6 x7) (srcOf x1) (dstOf x1)
/-- The hidden state after the second message-passing layer. -/
def hid2 : FVec Ideal S100000x128 .bf16 :=
  mlpArr kOne kZero (hid1 x0 x1 x2 x3 x4 x5 x6 x7) (agg1 x0 x1 x2 x3 x4 x5 x6 x7) x8 x9 x10 x11
/-- The third neighbour sums. -/
def agg2 : FVec Ideal S100000x128 .f32 := aggK (hid2 x0 x1 x2 x3 x4 x5 x6 x7 x8 x9 x10 x11) (srcOf x1) (dstOf x1)
/-- The program's result. -/
def kernelOut : FVec Ideal S100000x128 .f32 :=
  outKArr kOne kZero (hid0 x0 x2 x3) (hid1 x0 x1 x2 x3 x4 x5 x6 x7) (hid2 x0 x1 x2 x3 x4 x5 x6 x7 x8 x9 x10 x11)
    (agg2 x0 x1 x2 x3 x4 x5 x6 x7 x8 x9 x10 x11) x12 x13 x14 x15
    (woBlock0 x16) (woBlock1 x16) (woBlock2 x16) (woBlock3 x16) x17

end Chain

end Cert.KernelIdeal.HostK

end
-- ==== Proof.KWalk.lean ====
/-
  The buffer contents at each boundary of the kernel program, as functions of the launch memory.

  The program's run is a fold through eight segments: a stretch of host operations, then a launch, four times over.
  Each lemma `wJ_<buffer>` reads one buffer at boundary `J` back to the arguments: a buffer no operation of a stretch
  writes keeps its contents; a host result is its operation's function of its operands' contents; a launch leaves its
  input arrays as it found them and its result array at the layer's function of its inputs (the `final` lemma of that
  launch).  The last one, `w8_v44`, is the program's result: `kernelOut` of the eighteen argument arrays.
-/
import proofs.«158009_j18923625906187_2_alg».proof.Proof.Gen.KernelIdeal.Frame
import proofs.«158009_j18923625906187_2_alg».proof.Proof.KReg0
import proofs.«158009_j18923625906187_2_alg».proof.Proof.KReg1
import proofs.«158009_j18923625906187_2_alg».proof.Proof.KReg2
import proofs.«158009_j18923625906187_2_alg».proof.Proof.KReg3
import proofs.«158009_j18923625906187_2_alg».proof.Proof.KHost
import Idealize.ShloMosaic.Lib.StableHlo.Run

set_option maxRecDepth 16384

noncomputable section

namespace Cert.KernelIdeal.Walk

open Cert.KernelIdeal Cert.KernelIdeal.Gen Cert.KernelIdeal.Pay Cert.KernelIdeal.HostK Cert.GinSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An array of core `c` in the launch memory. -/
abbrev ar (b : Ref sig .tc) : Buf (Elt Ideal) ((c : Thread nD τ).loc b) := m ((c : Thread nD τ).loc b)

set_option maxHeartbeats 2000000 in
/-- The neighbour sums a stretch of host operations leaves, from any contents before it. -/
theorem hostAgg1 (W : Valuation τ sig (Elt Ideal)) :
    StableHlo.after hostOps1 W (Proc.devRef .tc main_v15)
      = aggK (W (Proc.devRef .tc main_v4)) (W (Proc.devRef .tc main_v1)) (W (Proc.devRef .tc main_v3)) := by
  after_results
  unfold aggK
  rfl

set_option maxHeartbeats 2000000 in
/-- The neighbour sums a stretch of host operations leaves, from any contents before it. -/
theorem hostAgg2 (W : Valuation τ sig (Elt Ideal)) :
    StableHlo.after hostOps2 W (Proc.devRef .tc main_v27)
      = aggK (W (Proc.devRef .tc main_v16)) (W (Proc.devRef .tc main_v1)) (W (Proc.devRef .tc main_v3)) := by
  after_results
  unfold aggK
  rfl

set_option maxHeartbeats 2000000 in
/-- The neighbour sums a stretch of host operations leaves, from any contents before it. -/
theorem hostAgg3 (W : Valuation τ sig (Elt Ideal)) :
    StableHlo.after hostOps3 W (Proc.devRef .tc main_v39)
      = aggK (W (Proc.devRef .tc main_v28)) (W (Proc.devRef .tc main_v1)) (W (Proc.devRef .tc main_v3)) := by
  after_results
  unfold aggK
  rfl

theorem w1_arg0 : W1 m ρ c (Proc.devRef .tc main_arg0) = (ar m c main_arg0) := by
  show StableHlo.after hostOps0 (W0 m ρ c) (Proc.devRef .tc main_arg0) = _
  after_results <;> rfl

theorem w1_arg2 : W1 m ρ c (Proc.devRef .tc main_arg2) = (ar m c main_arg2) := by
  show StableHlo.after hostOps0 (W0 m ρ c) (Proc.devRef .tc main_arg2) = _
  after_results <;> rfl

theorem w1_arg3 : W1 m ρ c (Proc.devRef .tc main_arg3) = (ar m c main_arg3) := by
  show StableHlo.after hostOps0 (W0 m ρ c) (Proc.devRef .tc main_arg3) = _
  after_results <;> rfl

theorem w1_arg4 : W1 m ρ c (Proc.devRef .tc main_arg4) = (ar m c main_arg4) := by
  show StableHlo.after hostOps0 (W0 m ρ c) (Proc.devRef .tc main_arg4) = _
  after_results <;> rfl

theorem w1_arg5 : W1 m ρ c (Proc.devRef .tc main_arg5) = (ar m c main_arg5) := by
  show StableHlo.after hostOps0 (W0 m ρ c) (Proc.devRef .tc main_arg5) = _
  after_results <;> rfl

theorem w1_arg6 : W1 m ρ c (Proc.devRef .tc main_arg6) = (ar m c main_arg6) := by
  show StableHlo.after hostOps0 (W0 m ρ c) (Proc.devRef .tc main_arg6) = _
  after_results <;> rfl

theorem w1_arg7 : W1 m ρ c (Proc.devRef .tc main_arg7) = (ar m c main_arg7) := by
  show StableHlo.after hostOps0 (W0 m ρ c) (Proc.devRef .tc main_arg7) = _
  after_results <;> rfl

theorem w1_arg8 : W1 m ρ c (Proc.devRef .tc main_arg8) = (ar m c main_arg8) := by
  show StableHlo.after hostOps0 (W0 m ρ c) (Proc.devRef .tc main_arg8) = _
  after_results <;> rfl

theorem w1_arg9 : W1 m ρ c (Proc.devRef .tc main_arg9) = (ar m c main_arg9) := by
  show StableHlo.after hostOps0 (W0 m ρ c) (Proc.devRef .tc main_arg9) = _
  after_results <;> rfl

theorem w1_arg10 : W1 m ρ c (Proc.devRef .tc main_arg10) = (ar m c main_arg10) := by
  show StableHlo.after hostOps0 (W0 m ρ c) (Proc.devRef .tc main_arg10) = _
  after_results <;> rfl

theorem w1_arg11 : W1 m ρ c (Proc.devRef .tc main_arg11) = (ar m c main_arg11) := by
  show StableHlo.after hostOps0 (W0 m ρ c) (Proc.devRef .tc main_arg11) = _
  after_results <;> rfl

theorem w1_arg16 : W1 m ρ c (Proc.devRef .tc main_arg16) = (ar m c main_arg16) := by
  show StableHlo.after hostOps0 (W0 m ρ c) (Proc.devRef .tc main_arg16) = _
  after_results <;> rfl

theorem w1_v1 : W1 m ρ c (Proc.devRef .tc main_v1) = (srcOf (ar m c main_arg1)) := by
  show StableHlo.after hostOps0 (W0 m ρ c) (Proc.devRef .tc main_v1) = _
  after_results <;> rfl

theorem w1_v3 : W1 m ρ c (Proc.devRef .tc main_v3) = (dstOf (ar m c main_arg1)) := by
  show StableHlo.after hostOps0 (W0 m ρ c) (Proc.devRef .tc main_v3) = _
  after_results <;> rfl

theorem w2_v4 : W2 m ρ c (Proc.devRef .tc main_v4) = (hid0 (ar m c main_arg0) (ar m c main_arg2) (ar m c main_arg3)) := (W2_arr m ρ c 3).trans ((Reg0.final (V1 m ρ) c).trans (by
  show linArr (W1 m ρ c (Proc.devRef .tc main_arg0)) (W1 m ρ c (Proc.devRef .tc main_arg2)) (W1 m ρ c (Proc.devRef .tc main_arg3)) = _
  rw [w1_arg0 m ρ c, w1_arg2 m ρ c, w1_arg3 m ρ c]
  rfl))

theorem w2_v1 : W2 m ρ c (Proc.devRef .tc main_v1) = (srcOf (ar m c main_arg1)) := (W2_of_ne m ρ c main_v1 (by decide)).trans (w1_v1 m ρ c)

theorem w2_v3 : W2 m ρ c (Proc.devRef .tc main_v3) = (dstOf (ar m c main_arg1)) := (W2_of_ne m ρ c main_v3 (by decide)).trans (w1_v3 m ρ c)

theorem w2_arg4 : W2 m ρ c (Proc.devRef .tc main_arg4) = (ar m c main_arg4) := (W2_of_ne m ρ c main_arg4 (by decide)).trans (w1_arg4 m ρ c)

theorem w2_arg5 : W2 m ρ c (Proc.devRef .tc main_arg5) = (ar m c main_arg5) := (W2_of_ne m ρ c main_arg5 (by decide)).trans (w1_arg5 m ρ c)

theorem w2_arg6 : W2 m ρ c (Proc.devRef .tc main_arg6) = (ar m c main_arg6) := (W2_of_ne m ρ c main_arg6 (by decide)).trans (w1_arg6 m ρ c)

theorem w2_arg7 : W2 m ρ c (Proc.devRef .tc main_arg7) = (ar m c main_arg7) := (W2_of_ne m ρ c main_arg7 (by decide)).trans (w1_arg7 m ρ c)

theorem w2_arg8 : W2 m ρ c (Proc.devRef .tc main_arg8) = (ar m c main_arg8) := (W2_of_ne m ρ c main_arg8 (by decide)).trans (w1_arg8 m ρ c)

theorem w2_arg9 : W2 m ρ c (Proc.devRef .tc main_arg9) = (ar m c main_arg9) := (W2_of_ne m ρ c main_arg9 (by decide)).trans (w1_arg9 m ρ c)

theorem w2_arg10 : W2 m ρ c (Proc.devRef .tc main_arg10) = (ar m c main_arg10) := (W2_of_ne m ρ c main_arg10 (by decide)).trans (w1_arg10 m ρ c)

theorem w2_arg11 : W2 m ρ c (Proc.devRef .tc main_arg11) = (ar m c main_arg11) := (W2_of_ne m ρ c main_arg11 (by decide)).trans (w1_arg11 m ρ c)

theorem w2_arg16 : W2 m ρ c (Proc.devRef .tc main_arg16) = (ar m c main_arg16) := (W2_of_ne m ρ c main_arg16 (by decide)).trans (w1_arg16 m ρ c)

theorem w3_v4 : W3 m ρ c (Proc.devRef .tc main_v4) = (hid0 (ar m c main_arg0) (ar m c main_arg2) (ar m c main_arg3)) := by
  show StableHlo.after hostOps1 (W2 m ρ c) (Proc.devRef .tc main_v4) = _
  after_results
  exact w2_v4 m ρ c

theorem w3_v1 : W3 m ρ c (Proc.devRef .tc main_v1) = (srcOf (ar m c main_arg1)) := by
  show StableHlo.after hostOps1 (W2 m ρ c) (Proc.devRef .tc main_v1) = _
  after_results
  exact w2_v1 m ρ c

theorem w3_v3 : W3 m ρ c (Proc.devRef .tc main_v3) = (dstOf (ar m c main_arg1)) := by
  show StableHlo.after hostOps1 (W2 m ρ c) (Proc.devRef .tc main_v3) = _
  after_results
  exact w2_v3 m ρ c

theorem w3_arg4 : W3 m ρ c (Proc.devRef .tc main_arg4) = (ar m c main_arg4) := by
  show StableHlo.after hostOps1 (W2 m ρ c) (Proc.devRef .tc main_arg4) = _
  after_results
  exact w2_arg4 m ρ c

theorem w3_arg5 : W3 m ρ c (Proc.devRef .tc main_arg5) = (ar m c main_arg5) := by
  show StableHlo.after hostOps1 (W2 m ρ c) (Proc.devRef .tc main_arg5) = _
  after_results
  exact w2_arg5 m ρ c

theorem w3_arg6 : W3 m ρ c (Proc.devRef .tc main_arg6) = (ar m c main_arg6) := by
  show StableHlo.after hostOps1 (W2 m ρ c) (Proc.devRef .tc main_arg6) = _
  after_results
  exact w2_arg6 m ρ c

theorem w3_arg7 : W3 m ρ c (Proc.devRef .tc main_arg7) = (ar m c main_arg7) := by
  show StableHlo.after hostOps1 (W2 m ρ c) (Proc.devRef .tc main_arg7) = _
  after_results
  exact w2_arg7 m ρ c

theorem w3_arg8 : W3 m ρ c (Proc.devRef .tc main_arg8) = (ar m c main_arg8) := by
  show StableHlo.after hostOps1 (W2 m ρ c) (Proc.devRef .tc main_arg8) = _
  after_results
  exact w2_arg8 m ρ c

theorem w3_arg9 : W3 m ρ c (Proc.devRef .tc main_arg9) = (ar m c main_arg9) := by
  show StableHlo.after hostOps1 (W2 m ρ c) (Proc.devRef .tc main_arg9) = _
  after_results
  exact w2_arg9 m ρ c

theorem w3_arg10 : W3 m ρ c (Proc.devRef .tc main_arg10) = (ar m c main_arg10) := by
  show StableHlo.after hostOps1 (W2 m ρ c) (Proc.devRef .tc main_arg10) = _
  after_results
  exact w2_arg10 m ρ c

theorem w3_arg11 : W3 m ρ c (Proc.devRef .tc main_arg11) = (ar m c main_arg11) := by
  show StableHlo.after hostOps1 (W2 m ρ c) (Proc.devRef .tc main_arg11) = _
  after_results
  exact w2_arg11 m ρ c

theorem w3_arg16 : W3 m ρ c (Proc.devRef .tc main_arg16) = (ar m c main_arg16) := by
  show StableHlo.after hostOps1 (W2 m ρ c) (Proc.devRef .tc main_arg16) = _
  after_results
  exact w2_arg16 m ρ c

theorem w3_v15 : W3 m ρ c (Proc.devRef .tc main_v15) = (agg0 (ar m c main_arg0) (ar m c main_arg1) (ar m c main_arg2) (ar m c main_arg3)) :=
  (hostAgg1 (W2 m ρ c)).trans (by rw [w2_v4 m ρ c, w2_v1 m ρ c, w2_v3 m ρ c]; rfl)

theorem w4_v4 : W4 m ρ c (Proc.devRef .tc main_v4) = (hid0 (ar m c main_arg0) (ar m c main_arg2) (ar m c main_arg3)) := (W4_arr m ρ c 0).trans (((dat1 (V3 m ρ) c).arrAt_in 0 rfl _).trans ((A_eq1 (V3 m ρ) c 0).trans (w3_v4 m ρ c)))

theorem w4_v16 : W4 m ρ c (Proc.devRef .tc main_v16) = (hid1 (ar m c main_arg0) (ar m c main_arg1) (ar m c main_arg2) (ar m c main_arg3) (ar m c main_arg4) (ar m c main_arg5) (ar m c main_arg6) (ar m c main_arg7)) := (W4_arr m ρ c 6).trans ((Reg1.final (V3 m ρ) c).trans (by
  show mlpArr kOne kZero (W3 m ρ c (Proc.devRef .tc main_v4)) (W3 m ρ c (Proc.devRef .tc main_v15)) (W3 m ρ c (Proc.devRef .tc main_arg4)) (W3 m ρ c (Proc.devRef .tc main_arg5)) (W3 m ρ c (Proc.devRef .tc main_arg6)) (W3 m ρ c (Proc.devRef .tc main_arg7)) = _
  rw [w3_v4 m ρ c, w3_v15 m ρ c, w3_arg4 m ρ c, w3_arg5 m ρ c, w3_arg6 m ρ c, w3_arg7 m ρ c]
  rfl))

theorem w4_v1 : W4 m ρ c (Proc.devRef .tc main_v1) = (srcOf (ar m c main_arg1)) := (W4_of_ne m ρ c main_v1 (by decide)).trans (w3_v1 m ρ c)

theorem w4_v3 : W4 m ρ c (Proc.devRef .tc main_v3) = (dstOf (ar m c main_arg1)) := (W4_of_ne m ρ c main_v3 (by decide)).trans (w3_v3 m ρ c)

theorem w4_arg8 : W4 m ρ c (Proc.devRef .tc main_arg8) = (ar m c main_arg8) := (W4_of_ne m ρ c main_arg8 (by decide)).trans (w3_arg8 m ρ c)

theorem w4_arg9 : W4 m ρ c (Proc.devRef .tc main_arg9) = (ar m c main_arg9) := (W4_of_ne m ρ c main_arg9 (by decide)).trans (w3_arg9 m ρ c)

theorem w4_arg10 : W4 m ρ c (Proc.devRef .tc main_arg10) = (ar m c main_arg10) := (W4_of_ne m ρ c main_arg10 (by decide)).trans (w3_arg10 m ρ c)

theorem w4_arg11 : W4 m ρ c (Proc.devRef .tc main_arg11) = (ar m c main_arg11) := (W4_of_ne m ρ c main_arg11 (by decide)).trans (w3_arg11 m ρ c)

theorem w4_arg16 : W4 m ρ c (Proc.devRef .tc main_arg16) = (ar m c main_arg16) := (W4_of_ne m ρ c main_arg16 (by decide)).trans (w3_arg16 m ρ c)

theorem w5_v4 : W5 m ρ c (Proc.devRef .tc main_v4) = (hid0 (ar m c main_arg0) (ar m c main_arg2) (ar m c main_arg3)) := by
  show StableHlo.after hostOps2 (W4 m ρ c) (Proc.devRef .tc main_v4) = _
  after_results
  exact w4_v4 m ρ c

theorem w5_v16 : W5 m ρ c (Proc.devRef .tc main_v16) = (hid1 (ar m c main_arg0) (ar m c main_arg1) (ar m c main_arg2) (ar m c main_arg3) (ar m c main_arg4) (ar m c main_arg5) (ar m c main_arg6) (ar m c main_arg7)) := by
  show StableHlo.after hostOps2 (W4 m ρ c) (Proc.devRef .tc main_v16) = _
  after_results
  exact w4_v16 m ρ c

theorem w5_v1 : W5 m ρ c (Proc.devRef .tc main_v1) = (srcOf (ar m c main_arg1)) := by
  show StableHlo.after hostOps2 (W4 m ρ c) (Proc.devRef .tc main_v1) = _
  after_results
  exact w4_v1 m ρ c

theorem w5_v3 : W5 m ρ c (Proc.devRef .tc main_v3) = (dstOf (ar m c main_arg1)) := by
  show StableHlo.after hostOps2 (W4 m ρ c) (Proc.devRef .tc main_v3) = _
  after_results
  exact w4_v3 m ρ c

theorem w5_arg8 : W5 m ρ c (Proc.devRef .tc main_arg8) = (ar m c main_arg8) := by
  show StableHlo.after hostOps2 (W4 m ρ c) (Proc.devRef .tc main_arg8) = _
  after_results
  exact w4_arg8 m ρ c

theorem w5_arg9 : W5 m ρ c (Proc.devRef .tc main_arg9) = (ar m c main_arg9) := by
  show StableHlo.after hostOps2 (W4 m ρ c) (Proc.devRef .tc main_arg9) = _
  after_results
  exact w4_arg9 m ρ c

theorem w5_arg10 : W5 m ρ c (Proc.devRef .tc main_arg10) = (ar m c main_arg10) := by
  show StableHlo.after hostOps2 (W4 m ρ c) (Proc.devRef .tc main_arg10) = _
  after_results
  exact w4_arg10 m ρ c

theorem w5_arg11 : W5 m ρ c (Proc.devRef .tc main_arg11) = (ar m c main_arg11) := by
  show StableHlo.after hostOps2 (W4 m ρ c) (Proc.devRef .tc main_arg11) = _
  after_results
  exact w4_arg11 m ρ c

theorem w5_arg16 : W5 m ρ c (Proc.devRef .tc main_arg16) = (ar m c main_arg16) := by
  show StableHlo.after hostOps2 (W4 m ρ c) (Proc.devRef .tc main_arg16) = _
  after_results
  exact w4_arg16 m ρ c

theorem w5_v27 : W5 m ρ c (Proc.devRef .tc main_v27) = (agg1 (ar m c main_arg0) (ar m c main_arg1) (ar m c main_arg2) (ar m c main_arg3) (ar m c main_arg4) (ar m c main_arg5) (ar m c main_arg6) (ar m c main_arg7)) :=
  (hostAgg2 (W4 m ρ c)).trans (by rw [w4_v16 m ρ c, w4_v1 m ρ c, w4_v3 m ρ c]; rfl)

theorem w6_v4 : W6 m ρ c (Proc.devRef .tc main_v4) = (hid0 (ar m c main_arg0) (ar m c main_arg2) (ar m c main_arg3)) := (W6_of_ne m ρ c main_v4 (by decide)).trans (w5_v4 m ρ c)

theorem w6_v16 : W6 m ρ c (Proc.devRef .tc main_v16) = (hid1 (ar m c main_arg0) (ar m c main_arg1) (ar m c main_arg2) (ar m c main_arg3) (ar m c main_arg4) (ar m c main_arg5) (ar m c main_arg6) (ar m c main_arg7)) := (W6_arr m ρ c 0).trans (((dat2 (V5 m ρ) c).arrAt_in 0 rfl _).trans ((A_eq2 (V5 m ρ) c 0).trans (w5_v16 m ρ c)))

theorem w6_v28 : W6 m ρ c (Proc.devRef .tc main_v28) = (hid2 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11)) := (W6_arr m ρ c 6).trans ((Reg2.final (V5 m ρ) c).trans (by
  show mlpArr kOne kZero (W5 m ρ c (Proc.devRef .tc main_v16)) (W5 m ρ c (Proc.devRef .tc main_v27)) (W5 m ρ c (Proc.devRef .tc main_arg8)) (W5 m ρ c (Proc.devRef .tc main_arg9)) (W5 m ρ c (Proc.devRef .tc main_arg10)) (W5 m ρ c (Proc.devRef .tc main_arg11)) = _
  rw [w5_v16 m ρ c, w5_v27 m ρ c, w5_arg8 m ρ c, w5_arg9 m ρ c, w5_arg10 m ρ c, w5_arg11 m ρ c]
  rfl))

theorem w6_v1 : W6 m ρ c (Proc.devRef .tc main_v1) = (srcOf (ar m c main_arg1)) := (W6_of_ne m ρ c main_v1 (by decide)).trans (w5_v1 m ρ c)

theorem w6_v3 : W6 m ρ c (Proc.devRef .tc main_v3) = (dstOf (ar m c main_arg1)) := (W6_of_ne m ρ c main_v3 (by decide)).trans (w5_v3 m ρ c)

theorem w6_arg16 : W6 m ρ c (Proc.devRef .tc main_arg16) = (ar m c main_arg16) := (W6_of_ne m ρ c main_arg16 (by decide)).trans (w5_arg16 m ρ c)

theorem w7_v4 : W7 m ρ c (Proc.devRef .tc main_v4) = (hid0 (ar m c main_arg0) (ar m c main_arg2) (ar m c main_arg3)) := by
  show StableHlo.after hostOps3 (W6 m ρ c) (Proc.devRef .tc main_v4) = _
  after_results
  exact w6_v4 m ρ c

theorem w7_v16 : W7 m ρ c (Proc.devRef .tc main_v16) = (hid1 (ar m c main_arg0) (ar m c main_arg1) (ar m c main_arg2) (ar m c main_arg3) (ar m c main_arg4) (ar m c main_arg5) (ar m c main_arg6) (ar m c main_arg7)) := by
  show StableHlo.after hostOps3 (W6 m ρ c) (Proc.devRef .tc main_v16) = _
  after_results
  exact w6_v16 m ρ c

theorem w7_v28 : W7 m ρ c (Proc.devRef .tc main_v28) = (hid2 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11)) := by
  show StableHlo.after hostOps3 (W6 m ρ c) (Proc.devRef .tc main_v28) = _
  after_results
  exact w6_v28 m ρ c

theorem w7_v39 : W7 m ρ c (Proc.devRef .tc main_v39) = (agg2 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11)) :=
  (hostAgg3 (W6 m ρ c)).trans (by rw [w6_v28 m ρ c, w6_v1 m ρ c, w6_v3 m ρ c]; rfl)

theorem w7_v40 : W7 m ρ c (Proc.devRef .tc main_v40) = (woBlock0 (ar m c main_arg16)) := by
  show StableHlo.after hostOps3 (W6 m ρ c) (Proc.devRef .tc main_v40) = _
  after_results
  rw [w6_arg16 m ρ c]
  rfl

theorem w7_v41 : W7 m ρ c (Proc.devRef .tc main_v41) = (woBlock1 (ar m c main_arg16)) := by
  show StableHlo.after hostOps3 (W6 m ρ c) (Proc.devRef .tc main_v41) = _
  after_results
  rw [w6_arg16 m ρ c]
  rfl

theorem w7_v42 : W7 m ρ c (Proc.devRef .tc main_v42) = (woBlock2 (ar m c main_arg16)) := by
  show StableHlo.after hostOps3 (W6 m ρ c) (Proc.devRef .tc main_v42) = _
  after_results
  rw [w6_arg16 m ρ c]
  rfl

theorem w7_v43 : W7 m ρ c (Proc.devRef .tc main_v43) = (woBlock3 (ar m c main_arg16)) := by
  show StableHlo.after hostOps3 (W6 m ρ c) (Proc.devRef .tc main_v43) = _
  after_results
  rw [w6_arg16 m ρ c]
  rfl

theorem w7_arg12 : W7 m ρ c (Proc.devRef .tc main_arg12) = (ar m c main_arg12) :=
  ((W8_arr m ρ c 4).trans (((dat3 (V7 m ρ) c).arrAt_in 4 rfl _).trans (A_eq3 (V7 m ρ) c 4))).symm.trans (W8_main_arg12 m ρ c)

theorem w7_arg13 : W7 m ρ c (Proc.devRef .tc main_arg13) = (ar m c main_arg13) :=
  ((W8_arr m ρ c 5).trans (((dat3 (V7 m ρ) c).arrAt_in 5 rfl _).trans (A_eq3 (V7 m ρ) c 5))).symm.trans (W8_main_arg13 m ρ c)

theorem w7_arg14 : W7 m ρ c (Proc.devRef .tc main_arg14) = (ar m c main_arg14) :=
  ((W8_arr m ρ c 6).trans (((dat3 (V7 m ρ) c).arrAt_in 6 rfl _).trans (A_eq3 (V7 m ρ) c 6))).symm.trans (W8_main_arg14 m ρ c)

theorem w7_arg15 : W7 m ρ c (Proc.devRef .tc main_arg15) = (ar m c main_arg15) :=
  ((W8_arr m ρ c 7).trans (((dat3 (V7 m ρ) c).arrAt_in 7 rfl _).trans (A_eq3 (V7 m ρ) c 7))).symm.trans (W8_main_arg15 m ρ c)

theorem w7_arg17 : W7 m ρ c (Proc.devRef .tc main_arg17) = (ar m c main_arg17) :=
  ((W8_arr m ρ c 12).trans (((dat3 (V7 m ρ) c).arrAt_in 12 rfl _).trans (A_eq3 (V7 m ρ) c 12))).symm.trans (W8_main_arg17 m ρ c)

theorem w8_v44 : W8 m ρ c (Proc.devRef .tc main_v44) = (kernelOut (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17)) := (W8_arr m ρ c 13).trans ((Reg3.final (V7 m ρ) c).trans (by
  show outKArr kOne kZero (W7 m ρ c (Proc.devRef .tc main_v4)) (W7 m ρ c (Proc.devRef .tc main_v16)) (W7 m ρ c (Proc.devRef .tc main_v28)) (W7 m ρ c (Proc.devRef .tc main_v39)) (W7 m ρ c (Proc.devRef .tc main_arg12)) (W7 m ρ c (Proc.devRef .tc main_arg13)) (W7 m ρ c (Proc.devRef .tc main_arg14)) (W7 m ρ c (Proc.devRef .tc main_arg15)) (W7 m ρ c (Proc.devRef .tc main_v40)) (W7 m ρ c (Proc.devRef .tc main_v41)) (W7 m ρ c (Proc.devRef .tc main_v42)) (W7 m ρ c (Proc.devRef .tc main_v43)) (W7 m ρ c (Proc.devRef .tc main_arg17)) = _
  rw [w7_v4 m ρ c, w7_v16 m ρ c, w7_v28 m ρ c, w7_v39 m ρ c, w7_arg12 m ρ c, w7_arg13 m ρ c, w7_arg14 m ρ c, w7_arg15 m ρ c, w7_v40 m ρ c, w7_v41 m ρ c, w7_v42 m ρ c, w7_v43 m ρ c, w7_arg17 m ρ c]
  rfl))

end Cert.KernelIdeal.Walk

end
-- ==== Proof.RefBridge.lean ====
/-
  The reference program's result is the kernel program's result, as functions of the eighteen argument arrays.

  The reference applies, to whole arrays: a dense layer (the input projection); three times the neighbour sums and the
  node update; the four hidden states laid side by side against the 512 x 128 read-out matrix.  Layer by layer these are
  the arrays the kernel program's launches leave:
  * a dense layer read at an entry is `denseRow` of the entry's row, in the host's spelling as in the kernel's;
  * the neighbour sums are the same host operations on both sides (the kernel program's change of float format between
    the gather and the sum is the identity on the extended reals), so they are carried as one function, never opened;
  * the node update differs only in `1 * h` against `h * 1`: commutativity of the product;
  * the read-out over 512 joined lanes is the sum of its four blocks of 128, added in the kernel's order
    (`outRow_eq_cat`), and the kernel's four weight blocks are the rows `128 b .. 128 b + 127` of the one matrix.
  No step needs the inputs finite.
-/
import proofs.«158009_j18923625906187_2_alg».proof.Proof.Gen.ReferenceIdeal.Read
import proofs.«158009_j18923625906187_2_alg».proof.Proof.KHost
import proofs.«158009_j18923625906187_2_alg».proof.Proof.Spec
import proofs.«158009_j18923625906187_2_alg».proof.Proof.LibDenseRow
import Idealize.ShloMosaic.Lib.Pipeline.Value
import Idealize.ShloMosaic.Lib.ValueIdx

noncomputable section

open scoped BigOperators

namespace Cert.ReferenceIdeal.Bridge

open Cert.ReferenceIdeal Cert.ReferenceIdeal.Read Cert.GinSpec Cert.DenseRow
open Cert.KernelIdeal.HostK (srcOf dstOf aggK hid0 agg0 hid1 agg1 hid2 agg2 kernelOut)
open Cert.KernelIdeal.Pay (kOne kZero)
open Idealize.ShloMosaic Idealize.ShloMosaic.TcCoe Idealize.ShloMosaic.ValueIdx
open Cert.ReferenceIdeal.Facts₀ Cert.ReferenceIdeal.Facts

/-! ## The reference's layers as functions of arrays -/

/-- A dense layer in the host's spelling. -/
def rDense (h : FVec Ideal S100000x128 .f32) (w : FVec Ideal S128x128 .f32) (b : FVec Ideal S128 .f32) :
    FVec Ideal S100000x128 .f32 :=
  addf (Host.dotGeneral dot_S100000x128_S128x128_S100000x128_1_0_0_1_n_n none h w)
    (broadcastInDim S100000x128 ![0, 1] bcast_S1x128_S100000x128_0_1 (broadcastInDim S1x128 ![1] bcast_S128_S1x128_1 b))

/-- The neighbour sums in the reference's spelling. -/
def rAgg (h : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (val_main_v3 (F := Ideal) e))
    (Host.gather gather_S100000x128_S1600000x1_S1600000x128_1_0_n_n_0_1_1128 h
      (broadcastInDim S1600000x1 ![0] bcast_S1600000_S1600000x1_0
        (select (cmpi .slt (val_main_v1 (F := Ideal) e) (broadcastInDim S1600000 ![] bcast_S_S1600000 (constantI S_ 32 0#32)))
          (addi (val_main_v1 (F := Ideal) e) (broadcastInDim S1600000 ![] bcast_S_S1600000 (constantI S_ 32 100000#32)))
          (val_main_v1 (F := Ideal) e))))

/-- The node update in the reference's spelling. -/
def rMlp (h a : FVec Ideal S100000x128 .f32) (w1 : FVec Ideal S128x128 .f32) (b1 : FVec Ideal S128 .f32)
    (w2 : FVec Ideal S128x128 .f32) (b2 : FVec Ideal S128 .f32) : FVec Ideal S100000x128 .f32 :=
  rDense (maximumf (rDense (addf (mulf (broadcastInDim S100000x128 ![] bcast_S_S100000x128
      (constant (F := Ideal) S_ .f32 0x3F800000#32)) h) a) w1 b1)
    (broadcastInDim S100000x128 ![] bcast_S_S100000x128 (constant (F := Ideal) S_ .f32 0x00000000#32))) w2 b2

/-- The read-out in the reference's spelling. -/
def rOut (h0 h1 h2 h3 : FVec Ideal S100000x128 .f32) (wo : FVec Ideal S512x128 .f32) (bo : FVec Ideal S128 .f32) :
    FVec Ideal S100000x128 .f32 :=
  addf (Host.dotGeneral dot_S100000x512_S512x128_S100000x128_1_0_0_1_n_n none
      (concatenate S100000x512 1 [⟨S100000x128, h0⟩, ⟨S100000x128, h1⟩, ⟨S100000x128, h2⟩, ⟨S100000x128, h3⟩]
        concatenates_S100000x128_S100000x128_S100000x128_S100000x128_S100000x512_d1) wo)
    (broadcastInDim S100000x128 ![0, 1] bcast_S1x128_S100000x128_0_1 (broadcastInDim S1x128 ![1] bcast_S128_S1x128_1 bo))

/-! ## Each layer is the kernel's -/

theorem dot_eq_plain : dot_S100000x128_S128x128_S100000x128_1_0_0_1_n_n = DotDims.plain 100000 128 128 := rfl
theorem dot512_eq_plain : dot_S100000x512_S512x128_S100000x128_1_0_0_1_n_n = DotDims.plain 100000 512 128 := rfl

/-- The host's dense layer at entry `(p, c)`. -/
theorem rDense_apply (h : FVec Ideal S100000x128 .f32) (w : FVec Ideal S128x128 .f32) (b : FVec Ideal S128 .f32)
    (p : Fin 100000) (c : Fin 128) :
    rDense h w b (ix2 p c) = denseRow (fun k => h (ix2 p k)) (fun k c => w (ix2 k c)) (fun c => b (ix1 c)) c := by
  unfold rDense
  rw [dot_eq_plain]
  exact hostDensePlain_apply none h w b bcast_S128_S1x128_1 bcast_S1x128_S100000x128_0_1 p c

/-- The host's dense layer is the array `linArr`. -/
theorem rDense_eq (h : FVec Ideal S100000x128 .f32) (w : FVec Ideal S128x128 .f32) (b : FVec Ideal S128 .f32) :
    rDense h w b = linArr h w b := by
  funext i
  obtain ⟨p, q, rfl⟩ : ∃ (p : Fin 100000) (q : Fin 128), i = ix2 p q := ⟨i 0, i 1, eq_ix2 i⟩
  exact rDense_apply h w b p q

/-- The neighbour sums are the kernel program's. -/
theorem rAgg_eq (h : FVec Ideal S100000x128 .f32) (e : IVec S2x1600000 32) :
    rAgg h e = aggK h (srcOf e) (dstOf e) := rfl

/-- The node update is the array `mlpArr`. -/
theorem rMlp_eq (h a : FVec Ideal S100000x128 .f32) (w1 : FVec Ideal S128x128 .f32) (b1 : FVec Ideal S128 .f32)
    (w2 : FVec Ideal S128x128 .f32) (b2 : FVec Ideal S128 .f32) :
    rMlp h a w1 b1 w2 b2 = mlpArr kOne kZero h a w1 b1 w2 b2 := by
  funext i
  obtain ⟨p, q, rfl⟩ : ∃ (p : Fin 100000) (q : Fin 128), i = ix2 p q := ⟨i 0, i 1, eq_ix2 i⟩
  unfold rMlp
  refine (rDense_apply _ w2 b2 p q).trans ?_
  unfold mlpArr mlpRow
  refine congrArg (fun f => denseRow f (matOf w2) (vecOf b2) q) (funext fun k => ?_)
  refine (congrArg (fun x => max x kZero) (rDense_apply _ w1 b1 p k)).trans ?_
  refine congrArg (fun f => max (denseRow f (matOf w1) (vecOf b1) k) kZero) (funext fun j => ?_)
  show kOne * h (ix2 p j) + a (ix2 p j) = h (ix2 p j) * kOne + a (ix2 p j)
  rw [mul_comm]

/-- Lane `0 * 128 + k` of the joined array is lane `k` of piece 0. -/
theorem cat_piece0 (h0 h1 h2 h3 : FVec Ideal S100000x128 .f32) (p : Fin 100000) (k : Fin 128) :
    concatenate S100000x512 1 [⟨S100000x128, h0⟩, ⟨S100000x128, h1⟩, ⟨S100000x128, h2⟩, ⟨S100000x128, h3⟩]
        concatenates_S100000x128_S100000x128_S100000x128_S100000x128_S100000x512_d1 (ix2 p (blockRow 0 k))
      = h0 (ix2 p k) :=
  concatenate_apply_piece (t := S100000x512) (1 : Fin 2)
    ([⟨S100000x128, h0⟩, ⟨S100000x128, h1⟩, ⟨S100000x128, h2⟩, ⟨S100000x128, h3⟩] : List ((s : Shape) × (s.Idx → EReal)))
    concatenates_S100000x128_S100000x128_S100000x128_S100000x128_S100000x512_d1
    (ix2 p (blockRow 0 k)) 0 (by show 0 < 4; omega) S100000x128 h0 rfl rfl 0 rfl (ix2 p k)
    (fun b hb => match b with
      | ⟨0, _⟩ => rfl
      | ⟨1, _⟩ => absurd rfl hb)
    rfl

/-- Lane `1 * 128 + k` of the joined array is lane `k` of piece 1. -/
theorem cat_piece1 (h0 h1 h2 h3 : FVec Ideal S100000x128 .f32) (p : Fin 100000) (k : Fin 128) :
    concatenate S100000x512 1 [⟨S100000x128, h0⟩, ⟨S100000x128, h1⟩, ⟨S100000x128, h2⟩, ⟨S100000x128, h3⟩]
        concatenates_S100000x128_S100000x128_S100000x128_S100000x128_S100000x512_d1 (ix2 p (blockRow 1 k))
      = h1 (ix2 p k) :=
  concatenate_apply_piece (t := S100000x512) (1 : Fin 2)
    ([⟨S100000x128, h0⟩, ⟨S100000x128, h1⟩, ⟨S100000x128, h2⟩, ⟨S100000x128, h3⟩] : List ((s : Shape) × (s.Idx → EReal)))
    concatenates_S100000x128_S100000x128_S100000x128_S100000x128_S100000x512_d1
    (ix2 p (blockRow 1 k)) 1 (by show 1 < 4; omega) S100000x128 h1 rfl rfl 128 rfl (ix2 p k)
    (fun b hb => match b with
      | ⟨0, _⟩ => rfl
      | ⟨1, _⟩ => absurd rfl hb)
    rfl

/-- Lane `2 * 128 + k` of the joined array is lane `k` of piece 2. -/
theorem cat_piece2 (h0 h1 h2 h3 : FVec Ideal S100000x128 .f32) (p : Fin 100000) (k : Fin 128) :
    concatenate S100000x512 1 [⟨S100000x128, h0⟩, ⟨S100000x128, h1⟩, ⟨S100000x128, h2⟩, ⟨S100000x128, h3⟩]
        concatenates_S100000x128_S100000x128_S100000x128_S100000x128_S100000x512_d1 (ix2 p (blockRow 2 k))
      = h2 (ix2 p k) :=
  concatenate_apply_piece (t := S100000x512) (1 : Fin 2)
    ([⟨S100000x128, h0⟩, ⟨S100000x128, h1⟩, ⟨S100000x128, h2⟩, ⟨S100000x128, h3⟩] : List ((s : Shape) × (s.Idx → EReal)))
    concatenates_S100000x128_S100000x128_S100000x128_S100000x128_S100000x512_d1
    (ix2 p (blockRow 2 k)) 2 (by show 2 < 4; omega) S100000x128 h2 rfl rfl 256 rfl (ix2 p k)
    (fun b hb => match b with
      | ⟨0, _⟩ => rfl
      | ⟨1, _⟩ => absurd rfl hb)
    rfl

/-- Lane `3 * 128 + k` of the joined array is lane `k` of piece 3. -/
theorem cat_piece3 (h0 h1 h2 h3 : FVec Ideal S100000x128 .f32) (p : Fin 100000) (k : Fin 128) :
    concatenate S100000x512 1 [⟨S100000x128, h0⟩, ⟨S100000x128, h1⟩, ⟨S100000x128, h2⟩, ⟨S100000x128, h3⟩]
        concatenates_S100000x128_S100000x128_S100000x128_S100000x128_S100000x512_d1 (ix2 p (blockRow 3 k))
      = h3 (ix2 p k) :=
  concatenate_apply_piece (t := S100000x512) (1 : Fin 2)
    ([⟨S100000x128, h0⟩, ⟨S100000x128, h1⟩, ⟨S100000x128, h2⟩, ⟨S100000x128, h3⟩] : List ((s : Shape) × (s.Idx → EReal)))
    concatenates_S100000x128_S100000x128_S100000x128_S100000x128_S100000x512_d1
    (ix2 p (blockRow 3 k)) 3 (by show 3 < 4; omega) S100000x128 h3 rfl rfl 384 rfl (ix2 p k)
    (fun b hb => match b with
      | ⟨0, _⟩ => rfl
      | ⟨1, _⟩ => absurd rfl hb)
    rfl

/-- Block 0 of the read-out matrix holds its rows `0 * 128 .. 0 * 128 + 127`. -/
theorem woBlock0_apply (wo : FVec Ideal S512x128 .f32) (k c : Fin 128) :
    Cert.KernelIdeal.HostK.woBlock0 wo (ix2 k c) = wo (ix2 (blockRow 0 k) c) := by
  unfold Cert.KernelIdeal.HostK.woBlock0
  exact extractStridedSlice_apply _ wo _ (ix2 k c) (ix2 (blockRow 0 k) c) (fun a => match a with
    | ⟨0, _⟩ => by show 0 * 128 + k.val = 0 + k.val; omega
    | ⟨1, _⟩ => by show c.val = 0 + c.val; omega)

/-- Block 1 of the read-out matrix holds its rows `1 * 128 .. 1 * 128 + 127`. -/
theorem woBlock1_apply (wo : FVec Ideal S512x128 .f32) (k c : Fin 128) :
    Cert.KernelIdeal.HostK.woBlock1 wo (ix2 k c) = wo (ix2 (blockRow 1 k) c) := by
  unfold Cert.KernelIdeal.HostK.woBlock1
  exact extractStridedSlice_apply _ wo _ (ix2 k c) (ix2 (blockRow 1 k) c) (fun a => match a with
    | ⟨0, _⟩ => by show 1 * 128 + k.val = 128 + k.val; omega
    | ⟨1, _⟩ => by show c.val = 0 + c.val; omega)

/-- Block 2 of the read-out matrix holds its rows `2 * 128 .. 2 * 128 + 127`. -/
theorem woBlock2_apply (wo : FVec Ideal S512x128 .f32) (k c : Fin 128) :
    Cert.KernelIdeal.HostK.woBlock2 wo (ix2 k c) = wo (ix2 (blockRow 2 k) c) := by
  unfold Cert.KernelIdeal.HostK.woBlock2
  exact extractStridedSlice_apply _ wo _ (ix2 k c) (ix2 (blockRow 2 k) c) (fun a => match a with
    | ⟨0, _⟩ => by show 2 * 128 + k.val = 256 + k.val; omega
    | ⟨1, _⟩ => by show c.val = 0 + c.val; omega)

/-- Block 3 of the read-out matrix holds its rows `3 * 128 .. 3 * 128 + 127`. -/
theorem woBlock3_apply (wo : FVec Ideal S512x128 .f32) (k c : Fin 128) :
    Cert.KernelIdeal.HostK.woBlock3 wo (ix2 k c) = wo (ix2 (blockRow 3 k) c) := by
  unfold Cert.KernelIdeal.HostK.woBlock3
  exact extractStridedSlice_apply _ wo _ (ix2 k c) (ix2 (blockRow 3 k) c) (fun a => match a with
    | ⟨0, _⟩ => by show 3 * 128 + k.val = 384 + k.val; omega
    | ⟨1, _⟩ => by show c.val = 0 + c.val; omega)

/-- The read-out over the joined lanes is the block-by-block read-out of the four states. -/
theorem rOut_eq (h0 h1 h2 h3 : FVec Ideal S100000x128 .f32) (wo : FVec Ideal S512x128 .f32) (bo : FVec Ideal S128 .f32)
    (i : S100000x128.Idx) :
    rOut h0 h1 h2 h3 wo bo i
      = outRow (rowOf h0 i) (rowOf h1 i) (rowOf h2 i) (rowOf h3 i) (matOf512 wo) (vecOf bo) (i 1) := by
  obtain ⟨p, q, rfl⟩ : ∃ (p : Fin 100000) (q : Fin 128), i = ix2 p q := ⟨i 0, i 1, eq_ix2 i⟩
  unfold rOut
  rw [dot512_eq_plain]
  refine (hostDensePlain_apply none _ wo bo bcast_S128_S1x128_1 bcast_S1x128_S100000x128_0_1 p q).trans ?_
  exact outRow_eq_cat (rowOf h0 (ix2 p q)) (rowOf h1 (ix2 p q)) (rowOf h2 (ix2 p q)) (rowOf h3 (ix2 p q)) (matOf512 wo) (vecOf bo) _
    (fun k => cat_piece0 h0 h1 h2 h3 p k) (fun k => cat_piece1 h0 h1 h2 h3 p k) (fun k => cat_piece2 h0 h1 h2 h3 p k)
    (fun k => cat_piece3 h0 h1 h2 h3 p k) q

/-- The read-out kernel's array, with the last layer named, is that read-out. -/
theorem outKArr_eq (h0 h1 h2 a2 : FVec Ideal S100000x128 .f32) (w1 : FVec Ideal S128x128 .f32) (b1 : FVec Ideal S128 .f32)
    (w2 : FVec Ideal S128x128 .f32) (b2 : FVec Ideal S128 .f32) (wo : FVec Ideal S512x128 .f32) (bo : FVec Ideal S128 .f32)
    (i : S100000x128.Idx) :
    outKArr kOne kZero h0 h1 h2 a2 w1 b1 w2 b2 (Cert.KernelIdeal.HostK.woBlock0 wo) (Cert.KernelIdeal.HostK.woBlock1 wo)
        (Cert.KernelIdeal.HostK.woBlock2 wo) (Cert.KernelIdeal.HostK.woBlock3 wo) bo i
      = outRow (rowOf h0 i) (rowOf h1 i) (rowOf h2 i) (rowOf (mlpArr kOne kZero h2 a2 w1 b1 w2 b2) i) (matOf512 wo) (vecOf bo) (i 1) := by
  unfold outKArr
  rw [← out4Row_eq_outRow]
  have e0 : matOf (Cert.KernelIdeal.HostK.woBlock0 wo) = fun k c => matOf512 wo (blockRow 0 k) c := funext fun k => funext fun c => woBlock0_apply wo k c
  have e1 : matOf (Cert.KernelIdeal.HostK.woBlock1 wo) = fun k c => matOf512 wo (blockRow 1 k) c := funext fun k => funext fun c => woBlock1_apply wo k c
  have e2 : matOf (Cert.KernelIdeal.HostK.woBlock2 wo) = fun k c => matOf512 wo (blockRow 2 k) c := funext fun k => funext fun c => woBlock2_apply wo k c
  have e3 : matOf (Cert.KernelIdeal.HostK.woBlock3 wo) = fun k c => matOf512 wo (blockRow 3 k) c := funext fun k => funext fun c => woBlock3_apply wo k c
  rw [e0, e1, e2, e3]
  rfl

/-! ## The whole programs -/

section Whole

variable (x0 : FVec Ideal S100000x128 .f32) (x1 : IVec S2x1600000 32) (x2 : FVec Ideal S128x128 .f32) (x3 : FVec Ideal S128 .f32)
  (x4 : FVec Ideal S128x128 .f32) (x5 : FVec Ideal S128 .f32) (x6 : FVec Ideal S128x128 .f32) (x7 : FVec Ideal S128 .f32)
  (x8 : FVec Ideal S128x128 .f32) (x9 : FVec Ideal S128 .f32) (x10 : FVec Ideal S128x128 .f32) (x11 : FVec Ideal S128 .f32)
  (x12 : FVec Ideal S128x128 .f32) (x13 : FVec Ideal S128 .f32) (x14 : FVec Ideal S128x128 .f32) (x15 : FVec Ideal S128 .f32)
  (x16 : FVec Ideal S512x128 .f32) (x17 : FVec Ideal S128 .f32)

theorem ref_hid0 : val_main_v7 (F := Ideal) x0 x2 x3 = hid0 x0 x2 x3 :=
  (rfl : val_main_v7 (F := Ideal) x0 x2 x3 = rDense x0 x2 x3).trans (rDense_eq x0 x2 x3)

theorem ref_agg0 : val_main_v17 (F := Ideal) x0 x1 x2 x3 = agg0 x0 x1 x2 x3 := by
  show rAgg (val_main_v7 (F := Ideal) x0 x2 x3) x1 = _
  rw [ref_hid0, rAgg_eq]; rfl

theorem ref_hid1 : val_main_v29 (F := Ideal) x0 x1 x2 x3 x4 x5 x6 x7 = hid1 x0 x1 x2 x3 x4 x5 x6 x7 := by
  show rMlp (val_main_v7 (F := Ideal) x0 x2 x3) (val_main_v17 (F := Ideal) x0 x1 x2 x3) x4 x5 x6 x7 = _
  rw [ref_hid0, ref_agg0, rMlp_eq]; rfl

theorem ref_agg1 : val_main_v39 (F := Ideal) x0 x1 x2 x3 x4 x5 x6 x7 = agg1 x0 x1 x2 x3 x4 x5 x6 x7 := by
  show rAgg (val_main_v29 (F := Ideal) x0 x1 x2 x3 x4 x5 x6 x7) x1 = _
  rw [ref_hid1, rAgg_eq]; rfl

theorem ref_hid2 : val_main_v51 (F := Ideal) x0 x1 x2 x3 x4 x5 x6 x7 x8 x9 x10 x11 = hid2 x0 x1 x2 x3 x4 x5 x6 x7 x8 x9 x10 x11 := by
  show rMlp (val_main_v29 (F := Ideal) x0 x1 x2 x3 x4 x5 x6 x7) (val_main_v39 (F := Ideal) x0 x1 x2 x3 x4 x5 x6 x7) x8 x9 x10 x11 = _
  rw [ref_hid1, ref_agg1, rMlp_eq]; rfl

theorem ref_agg2 : val_main_v61 (F := Ideal) x0 x1 x2 x3 x4 x5 x6 x7 x8 x9 x10 x11 = agg2 x0 x1 x2 x3 x4 x5 x6 x7 x8 x9 x10 x11 := by
  show rAgg (val_main_v51 (F := Ideal) x0 x1 x2 x3 x4 x5 x6 x7 x8 x9 x10 x11) x1 = _
  rw [ref_hid2, rAgg_eq]; rfl

theorem ref_hid3 : val_main_v73 (F := Ideal) x0 x1 x2 x3 x4 x5 x6 x7 x8 x9 x10 x11 x12 x13 x14 x15
    = mlpArr kOne kZero (hid2 x0 x1 x2 x3 x4 x5 x6 x7 x8 x9 x10 x11) (agg2 x0 x1 x2 x3 x4 x5 x6 x7 x8 x9 x10 x11) x12 x13 x14 x15 := by
  show rMlp (val_main_v51 (F := Ideal) x0 x1 x2 x3 x4 x5 x6 x7 x8 x9 x10 x11) (val_main_v61 (F := Ideal) x0 x1 x2 x3 x4 x5 x6 x7 x8 x9 x10 x11) x12 x13 x14 x15 = _
  rw [ref_hid2, ref_agg2, rMlp_eq]

/-- The reference's result is the kernel program's. -/
theorem ref_out : val_main_v78 (F := Ideal) x0 x1 x2 x3 x4 x5 x6 x7 x8 x9 x10 x11 x12 x13 x14 x15 x16 x17 = kernelOut x0 x1 x2 x3 x4 x5 x6 x7 x8 x9 x10 x11 x12 x13 x14 x15 x16 x17 := by
  show rOut (val_main_v7 (F := Ideal) x0 x2 x3) (val_main_v29 (F := Ideal) x0 x1 x2 x3 x4 x5 x6 x7)
      (val_main_v51 (F := Ideal) x0 x1 x2 x3 x4 x5 x6 x7 x8 x9 x10 x11) (val_main_v73 (F := Ideal) x0 x1 x2 x3 x4 x5 x6 x7 x8 x9 x10 x11 x12 x13 x14 x15) x16 x17 = _
  rw [ref_hid0, ref_hid1, ref_hid2, ref_hid3]
  funext i
  rw [rOut_eq]
  unfold kernelOut
  rw [outKArr_eq]

end Whole

end Cert.ReferenceIdeal.Bridge

end
-- ==== Proof.lean ====
/-
  A three-layer graph-isomorphism encoder over 100000 nodes, 128 features and 1.6 million edges: the kernel program
  against its reference, on the extended reals.

  The kernel program is four launches (the input projection; two message-passing layers; the last message-passing layer
  fused with the read-out) among stretches of host operations (the edge list's two rows; for every layer a gather of the
  source nodes' rows and their sum into the target nodes' rows; the read-out matrix cut into four blocks).  The reference
  is one host program over whole arrays.

  * The three frames: the two kernel programs' are generated; the reference's is its generated run with the result dropped.
  * No operation was rewritten by the idealization, so there is nothing to preserve.
  * Equal results: the kernel program's run ends with the result array at the last boundary's contents (`run_named`), which
    is `kernelOut` of the argument arrays (`w8_v44`: every launch's result is one array function of its inputs, every
    host result its operation's function); the reference's run ends at its composed term, which is the same function of
    the same arguments (`ref_out`).  Commutativity and associativity of sums and products on the extended reals are all
    the algebra used, so the finiteness of the inputs is never opened.
-/
import proofs.«158009_j18923625906187_2_alg».proof.Defs
import proofs.«158009_j18923625906187_2_alg».proof.Proof.Gen.Kernel
import proofs.«158009_j18923625906187_2_alg».proof.Proof.Gen.Kernel.Frame
import proofs.«158009_j18923625906187_2_alg».proof.Proof.Gen.KernelIdeal
import proofs.«158009_j18923625906187_2_alg».proof.Proof.Gen.KernelIdeal.Frame
import proofs.«158009_j18923625906187_2_alg».proof.Proof.Gen.ReferenceIdeal
import proofs.«158009_j18923625906187_2_alg».proof.Proof.Gen.ReferenceIdeal.Run
import proofs.«158009_j18923625906187_2_alg».proof.Proof.Gen.ReferenceIdeal.Read
import proofs.«158009_j18923625906187_2_alg».proof.Proof.Gen.Pre_finite_inputs
import proofs.«158009_j18923625906187_2_alg».proof.Proof.KRun
import proofs.«158009_j18923625906187_2_alg».proof.Proof.KWalk
import proofs.«158009_j18923625906187_2_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both programs end with the result array at `kernelOut` of their (agreeing) argument arrays. -/
theorem algebraic : Cert.algebraic_KernelIdeal_ReferenceIdeal := by
  intro m ρ m' ρ' _ hagree
  refine ⟨fun c => Cert.KernelIdeal.HostK.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Walk.w8_v44 m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.ReferenceIdeal.Read.val_main_v78_eq, Cert.ReferenceIdeal.Bridge.ref_out,
      a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
